-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S1024x128 : Shape := ⟨2, ![1024, 128]⟩
abbrev S128x256 : Shape := ⟨2, ![128, 256]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg5 : FVec F S384x128 .f32) (main_arg6 : FVec F S384x128 .f32) (main_arg7 : FVec F S384 .f32) (main_arg8 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_v33

def fn {F : FTy → Type} [FloatOps F] (main_arg0 : FVec F S500000x128 .f32) (main_arg1 : IVec S500000 32) (main_arg2 : FVec F S1024x128 .f32) (main_arg3 : FVec F S128x256 .f32) (main_arg4 : FVec F S128 .f32) (main_arg5 : FVec F S384x128 .f32) (main_arg6 : FVec F S384x128 .f32) (main_arg7 : FVec F S384 .f32) (main_arg8 : FVec F S384 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S500000x128 : Shape := ⟨2, ![500000, 128]⟩
abbrev S500000 : Shape := ⟨1, ![500000]⟩
abbrev S1024x128 : Shape := ⟨2, ![1024, 128]⟩
abbrev S128x256 : Shape := ⟨2, ![128, 256]⟩
abbrev S128 : Shape := ⟨1, ![128]⟩
abbrev S384x128 : Shape := ⟨2, ![384, 128]⟩
abbrev S384 : Shape := ⟨1, ![384]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S128x128 : Shape := ⟨2, ![128, 128]⟩
abbrev S10000x128 : Shape := ⟨2, ![10000, 128]⟩
abbrev S10000x1 : Shape := ⟨2, ![10000, 1]⟩
abbrev S1x128 : Shape := ⟨2, ![1, 128]⟩
abbrev S10000 : Shape := ⟨1, ![10000]⟩
abbrev S1024 : Shape := ⟨1, ![1024]⟩
abbrev S128x384 : Shape := ⟨2, ![128, 384]⟩
abbrev S1024x384 : Shape := ⟨2, ![1024, 384]⟩
abbrev S1x384 : Shape := ⟨2, ![1, 384]⟩

abbrev nBuf : Space → Nat
  | .hbm => 66
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S1024x128, .f32⟩
  | .hbm, ⟨3, _⟩ => ⟨S128x256, .f32⟩
  | .hbm, ⟨4, _⟩ => ⟨S128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S1, .i32⟩
  | .hbm, ⟨18, _⟩ => ⟨S_, .i32⟩
  | .hbm, ⟨19, _⟩ => ⟨S500000x1, .i32⟩
  | .hbm, ⟨20, _⟩ => ⟨S500000x1, .i1⟩
  | .hbm, ⟨21, _⟩ => ⟨S1x1, .i32⟩
  | .hbm, ⟨22, _⟩ => ⟨S500000x1, .i32⟩
  | .hbm, ⟨23, _⟩ => ⟨S500000x1, .i1⟩
  | .hbm, ⟨24, _⟩ => ⟨S500000x1, .i1⟩
  | .hbm, ⟨25, _⟩ => ⟨S_, .i1⟩
  | .hbm, ⟨26, _⟩ => ⟨S500000, .i1⟩
  | .hbm, ⟨27, _⟩ => ⟨S500000x128, .f32⟩
  | .hbm, ⟨28, _⟩ => ⟨S500000x128, .i1⟩
  | .hbm, ⟨29, _⟩ => ⟨S_, .f32⟩
  | .hbm, ⟨30, _⟩ => ⟨S500000x128, .f32⟩
  | .hbm, ⟨31, _⟩ => ⟨S500000x128, .f32⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .f32⟩
  | .hbm, ⟨37, _⟩ => ⟨S128x128, .bf16⟩
  | .hbm, ⟨38, _⟩ => ⟨S500000x128, .f32⟩
  | .hbm, ⟨39, _⟩ => ⟨S500000x1, .f32⟩
  | .hbm, ⟨40, _⟩ => ⟨S500000, .f32⟩
  | .hbm, ⟨41, _⟩ => ⟨S_, .f32⟩
  | .hbm, ⟨42, _⟩ => ⟨S1024x128, .f32⟩
  | .hbm, ⟨43, _⟩ => ⟨S500000x1, .i32⟩
  | .hbm, ⟨44, _⟩ => ⟨S1024x128, .f32⟩
  | .hbm, ⟨45, _⟩ => ⟨S_, .f32⟩
  | .hbm, ⟨46, _⟩ => ⟨S1024, .f32⟩
  | .hbm, ⟨47, _⟩ => ⟨S500000x1, .i32⟩
  | .hbm, ⟨48, _⟩ => ⟨S1024, .f32⟩
  | .hbm, ⟨49, _⟩ => ⟨S_, .f32⟩
  | .hbm, ⟨50, _⟩ => ⟨S500000, .f32⟩
  | .hbm, ⟨51, _⟩ => ⟨S_, .f32⟩
  | .hbm, ⟨52, _⟩ => ⟨S1024, .f32⟩
  | .hbm, ⟨53, _⟩ => ⟨S500000x1, .i32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S128x384, .f32⟩
  | .hbm, ⟨64, _⟩ => ⟨S128x384, .f32⟩
  | .hbm, ⟨65, _⟩ => ⟨S1024x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1024x128, .f32⟩
  | .local _ .vmem, ⟨12, _⟩ => ⟨S1024x128, .f32⟩
  | .local _ .vmem, ⟨13, _⟩ => ⟨S128x384, .f32⟩
  | .local _ .vmem, ⟨14, _⟩ => ⟨S128x384, .f32⟩
  | .local _ .vmem, ⟨15, _⟩ => ⟨S384, .f32⟩
  | .local _ .vmem, ⟨16, _⟩ => ⟨S384, .f32⟩
  | .local _ .vmem, ⟨17, _⟩ => ⟨S1024x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7_0 : Ref sig .tc := ⟨.hbm, 38, rfl⟩
abbrev main_v7_1 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_0 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_4 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  bcast_S_S1024x128 : S_.BroadcastsInDim S1024x128 (![] : Fin 0 → Fin S1024x128.rank)
  bcast_S_S1024 : S_.BroadcastsInDim S1024 (![] : Fin 0 → Fin S1024.rank)
  reducesTo_S1024_S_d0 : S1024.ReducesTo [0] S_
  transposes_S384x128_S128x384_1_0 : S384x128.Transposes [1, 0] S128x384
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  gather_S1024x128_S500000x1_S500000x128_1_0_n_n_0_1_1128_wf : GatherDims.WF S1024x128 S500000x1 S500000x128 [1] [0] [] [0] [] 1 ![1, 128]
  dot_S10000x128_S128x128_S10000x128_1_0_0_1_n_n_wf : DotDims.WF S10000x128 S128x128 S10000x128 [1] [0] [0] [1] [] []
  scatter_S1024x128_S500000x1_S500000x128_1_0_0_1_wf : ScatterDims.WF S1024x128 S500000x1 S500000x128 [1] [0] [0] 1
  scatter_S1024_S500000x1_S500000_n_0_0_1_wf : ScatterDims.WF S1024 S500000x1 S500000 [] [0] [0] 1
  dot_S1024x128_S128x384_S1024x384_1_0_0_1_n_n_wf : DotDims.WF S1024x128 S128x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S500000x128.size a
  hwx0_5 : ∀ i : grid0.Coords, EltTy.bits .f32 = 32 ∨ (Rect.block (s := S500000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S500000x1.size a
  hwx0_6 : ∀ i : grid0.Coords, EltTy.bits .f32 = 32 ∨ (Rect.block (s := S500000x1) S10000x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x128.size a
  hwx1_6 : ∀ i : grid1.Coords, EltTy.bits .f32 = 32 ∨ (Rect.block (s := S1024x128) S1024x128.size (cc1_transform_6 i) (hinb1_6 i)).WholeWords (EltTy.packing .f32)

variable [Facts₀]

def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S10000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1024x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S1024x128 : Shape := ⟨2, ![1024, 128]⟩
abbrev S128x256 : Shape := ⟨2, ![128, 256]⟩
abbrev S128 : Shape := ⟨1, ![128]⟩
abbrev S384x128 : Shape := ⟨2, ![384, 128]⟩
abbrev S384 : Shape := ⟨1, ![384]⟩
abbrev S_ : Shape := ⟨0, ![]⟩
abbrev S500000x1 : Shape := ⟨2, ![500000, 1]⟩
abbrev S500000x256 : Shape := ⟨2, ![500000, 256]⟩
abbrev S256x128 : Shape := ⟨2, ![256, 128]⟩
abbrev S1x128 : Shape := ⟨2, ![1, 128]⟩
abbrev S128x384 : Shape := ⟨2, ![128, 384]⟩
abbrev S1024x384 : Shape := ⟨2, ![1024, 384]⟩
abbrev S1x384 : Shape := ⟨2, ![1, 384]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S1024x128, .f32⟩
  | .hbm, ⟨3, _⟩ => ⟨S128x256, .f32⟩
  | .hbm, ⟨4, _⟩ => ⟨S128, .f32⟩
  | .hbm, ⟨5, _⟩ => ⟨S384x128, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S500000x256, .f32⟩
  | .hbm, ⟨19, _⟩ => ⟨S256x128, .f32⟩
  | .hbm, ⟨20, _⟩ => ⟨S500000x128, .f32⟩
  | .hbm, ⟨21, _⟩ => ⟨S1x128, .f32⟩
  | .hbm, ⟨22, _⟩ => ⟨S500000x128, .f32⟩
  | .hbm, ⟨23, _⟩ => ⟨S500000x128, .f32⟩
  | .hbm, ⟨24, _⟩ => ⟨S500000x128, .f32⟩
  | .hbm, ⟨25, _⟩ => ⟨S500000x128, .f32⟩
  | .hbm, ⟨26, _⟩ => ⟨S_, .f32⟩
  | .hbm, ⟨27, _⟩ => ⟨S500000x128, .f32⟩
  | .hbm, ⟨28, _⟩ => ⟨S500000x128, .f32⟩
  | .hbm, ⟨29, _⟩ => ⟨S_, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S1024x128, .f32⟩
  | .hbm, ⟨35, _⟩ => ⟨S500000x1, .i32⟩
  | .hbm, ⟨36, _⟩ => ⟨S1024x128, .f32⟩
  | .hbm, ⟨37, _⟩ => ⟨S128x384, .f32⟩
  | .hbm, ⟨38, _⟩ => ⟨S1024x384, .f32⟩
  | .hbm, ⟨39, _⟩ => ⟨S1x384, .f32⟩
  | .hbm, ⟨40, _⟩ => ⟨S1024x384, .f32⟩
  | .hbm, ⟨41, _⟩ => ⟨S1024x384, .f32⟩
  | .hbm, ⟨42, _⟩ => ⟨S128x384, .f32⟩
  | .hbm, ⟨43, _⟩ => ⟨S1024x384, .f32⟩
  | .hbm, ⟨44, _⟩ => ⟨S1x384, .f32⟩
  | .hbm, ⟨45, _⟩ => ⟨S1024x384, .f32⟩
  | .hbm, ⟨46, _⟩ => ⟨S1024x384, .f32⟩
  | .hbm, ⟨47, _⟩ => ⟨S1024x128, .f32⟩
  | .hbm, ⟨48, _⟩ => ⟨S1024x128, .f32⟩
  | .hbm, ⟨49, _⟩ => ⟨S1024x128, .f32⟩
  | .hbm, ⟨50, _⟩ => ⟨S1024x128, .f32⟩
  | .hbm, ⟨51, _⟩ => ⟨S1024x128, .f32⟩
  | .hbm, ⟨52, _⟩ => ⟨S1024x128, .f32⟩
  | .hbm, ⟨53, _⟩ => ⟨S1024x128, .f32⟩
  | .hbm, ⟨54, _⟩ => ⟨S1024x128, .f32⟩
  | .hbm, ⟨55, _⟩ => ⟨S1024x128, .f32⟩
  | .hbm, ⟨56, _⟩ => ⟨S_, .f32⟩
  | .hbm, ⟨57, _⟩ => ⟨S1024x128, .f32⟩
  | .hbm, ⟨58, _⟩ => ⟨S1024x128, .f32⟩
  | .hbm, ⟨59, _⟩ => ⟨S_, .f32⟩
  | .hbm, ⟨60, _⟩ => ⟨S1024x128, .f32⟩
  | .hbm, ⟨61, _⟩ => ⟨S1024x128, .f32⟩
  | .hbm, ⟨62, _⟩ => ⟨S1024x128, .f32⟩
  | .hbm, ⟨63, _⟩ => ⟨S1024x128, .f32⟩
  | .hbm, ⟨64, _⟩ => ⟨S1024x128, .f32⟩
  | .hbm, ⟨65, _⟩ => ⟨S_, .f32⟩
  | .hbm, ⟨66, _⟩ => ⟨S1024x128, .f32⟩
  | .hbm, ⟨67, _⟩ => ⟨S1024x128, .f32⟩
  | .hbm, ⟨68, _⟩ => ⟨S_, .f32⟩
  | .hbm, ⟨69, _⟩ => ⟨S1024x128, .f32⟩
  | .hbm, ⟨70, _⟩ => ⟨S1024x128, .f32⟩
  | .hbm, ⟨71, _⟩ => ⟨S1024x128, .f32⟩
  | .hbm, ⟨72, _⟩ => ⟨S1024x128, .f32⟩
  | .hbm, ⟨73, _⟩ => ⟨S1024x128, .f32⟩
  | .hbm, ⟨74, _⟩ => ⟨S_, .f32⟩
  | .hbm, ⟨75, _⟩ => ⟨S1024x128, .f32⟩
  | .hbm, ⟨76, _⟩ => ⟨S1024x128, .f32⟩
  | .hbm, ⟨77, _⟩ => ⟨S1024x128, .f32⟩
  | .hbm, ⟨78, _⟩ => ⟨S1024x128, .f32⟩
  | .hbm, ⟨79, _⟩ => ⟨S1024x128, .f32⟩
  | .hbm, ⟨80, _⟩ => ⟨S500000x128, .f32⟩
  | .hbm, ⟨81, _⟩ => ⟨S_, .f32⟩
  | .hbm, ⟨82, _⟩ => ⟨S500000, .f32⟩
  | .hbm, ⟨83, _⟩ => ⟨S500000, .f32⟩
  | .hbm, ⟨84, _⟩ => ⟨S_, .f32⟩
  | .hbm, ⟨85, _⟩ => ⟨S1024, .f32⟩
  | .hbm, ⟨86, _⟩ => ⟨S500000x1, .i32⟩
  | .hbm, ⟨87, _⟩ => ⟨S1024, .f32⟩
  | .hbm, ⟨88, _⟩ => ⟨S_, .f32⟩
  | .hbm, ⟨89, _⟩ => ⟨S500000, .f32⟩
  | .hbm, ⟨90, _⟩ => ⟨S_, .f32⟩
  | .hbm, ⟨91, _⟩ => ⟨S1024, .f32⟩
  | .hbm, ⟨92, _⟩ => ⟨S500000x1, .i32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S1024x128 : S_.BroadcastsInDim S1024x128 (![] : Fin 0 → Fin S1024x128.rank)
  transposes_S384x128_S128x384_1_0 : S384x128.Transposes [1, 0] S128x384
  bcast_S384_S1x384_1 : S384.BroadcastsInDim S1x384 (![1] : Fin 1 → Fin S1x384.rank)
  bcast_S1x384_S1024x384_0_1 : S1x384.BroadcastsInDim S1024x384 (![0, 1] : Fin 2 → Fin S1024x384.rank)
  slices_S1024x384_S1024x128_0_0 : S1024x384.Slices ![0, 0] S1024x128
  slices_S1024x384_S1024x128_0_128 : S1024x384.Slices ![0, 128] S1024x128
  slices_S1024x384_S1024x128_0_256 : S1024x384.Slices ![0, 256] S1024x128
  reducesTo_S500000x128_S500000_d1 : S500000x128.ReducesTo [1] S500000
  h_S_ : 0 < S_.numel
  bcast_S_S1024 : S_.BroadcastsInDim S1024 (![] : Fin 0 → Fin S1024.rank)
  reducesTo_S1024_S_d0 : S1024.ReducesTo [0] S_
  gather_S1024x128_S500000x1_S500000x128_1_0_n_n_0_1_1128_wf : GatherDims.WF S1024x128 S500000x1 S500000x128 [1] [0] [] [0] [] 1 ![1, 128]
  dot_S500000x256_S256x128_S500000x128_1_0_0_1_n_n_wf : DotDims.WF S500000x256 S256x128 S500000x128 [1] [0] [0] [1] [] []
  scatter_S1024x128_S500000x1_S500000x128_1_0_0_1_wf : ScatterDims.WF S1024x128 S500000x1 S500000x128 [1] [0] [0] 1
  dot_S1024x128_S128x384_S1024x384_1_0_0_1_n_n_wf : DotDims.WF S1024x128 S128x384 S1024x384 [1] [0] [0] [1] [] []
  scatter_S1024_S500000x1_S500000_n_0_0_1_wf : ScatterDims.WF S1024 S500000x1 S500000 [] [0] [0] 1

variable [Facts₀]

def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def scatter_S1024_S500000x1_S500000_n_0_0_1 : ScatterDims S1024 S500000x1 S500000 where
  updateWindowDims := []
  insertedWindowDims := [0]
  scatterDimsToOperandDims := [0]
  indexVectorDim := 1
  wf := scatter_S1024_S500000x1_S500000_n_0_0_1_wf

class Facts : Prop extends Facts₀ where

variable [Facts]
-- ==== Proof.KernelRun.lean ====
/-
  The idealized kernel's run with its two results kept.

  The program is five segments: the host lines that build the gathered context array and the two weight blocks, the
  gate region over 50 grid points, the host lines that pool per graph and form the gate statistic, and the one-point
  GRU region.  Every weakly fair execution terminates without a fault, and in the final state every buffer the
  TensorCore names outside a region's scope holds the last boundary's contents `W5`: the fold of the host lines'
  results and of each region's write-backs through the launch memory.  Here that is stated for the two result
  buffers (the GRU region's output array and the scalar gate statistic) beside the nine argument arrays, which end
  as launched.
-/
import proofs.«138824_j50190987821195_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result buffers end at the last
    boundary's contents and the argument arrays as launched. -/
theorem run : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.RunValue

end
-- ==== Proof.KernelHost.lean ====
/-
  What the host lines of the idealized kernel compute, buffer by buffer.

  Before the gate region the host gathers one context row per node (rows whose graph number is out of range are
  filled with a not-a-number word) and cuts, transposes and converts the two halves of the gate's weight matrix;
  between the regions it pools the gated features per graph by an accumulating scatter, reshapes the per-node gate
  lengths to a vector, pools them and the constant one per graph, and forms the mean over graphs of pooled length
  over max(count, 1); it transposes the two GRU weight matrices.  Each buffer the regions or the results read is
  stated here as that composed term of the launch memory and of the arrays the gate region leaves.
-/
import proofs.«138824_j50190987821195_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## At the gate region's entry -/

theorem W2_arg0 (c : Dev nD) : W2 m ρ c (Proc.devRef .tc main_arg0) = (m ((c : Thread nD τ).loc main_arg0)) := by
  show StableHlo.after hostOps0_1 (StableHlo.after hostOps0 (W0 m ρ c)) (Proc.devRef .tc main_arg0) = _
  after_results <;> rfl

theorem W2_arg4 (c : Dev nD) : W2 m ρ c (Proc.devRef .tc main_arg4) = (m ((c : Thread nD τ).loc main_arg4)) := by
  show StableHlo.after hostOps0_1 (StableHlo.after hostOps0 (W0 m ρ c)) (Proc.devRef .tc main_arg4) = _
  after_results <;> rfl

/-- The first weight block: columns 0 … 127 of the gate's weight matrix, transposed. -/
theorem W2_v3 (c : Dev nD) : W2 m ρ c (Proc.devRef .tc main_v3) = truncf .bf16 (transpose S128x128 [1, 0] (extractStridedSlice S128x128 ![0, 0] (m ((c : Thread nD τ).loc main_arg3)) slices_S128x256_S128x128_0_0) transposes_S128x128_S128x128_1_0) bitsLt_bf16_f32 := by
  show StableHlo.after hostOps0_1 (StableHlo.after hostOps0 (W0 m ρ c)) (Proc.devRef .tc main_v3) = _
  after_results <;> rfl

/-- The second weight block: columns 128 … 255, transposed. -/
theorem W2_v6 (c : Dev nD) : W2 m ρ c (Proc.devRef .tc main_v6) = truncf .bf16 (transpose S128x128 [1, 0] (extractStridedSlice S128x128 ![0, 128] (m ((c : Thread nD τ).loc main_arg3)) slices_S128x256_S128x128_0_128) transposes_S128x128_S128x128_1_0) bitsLt_bf16_f32 := by
  show StableHlo.after hostOps0_1 (StableHlo.after hostOps0 (W0 m ρ c)) (Proc.devRef .tc main_v6) = _
  after_results <;> rfl

set_option maxHeartbeats 4000000 in
/-- The gathered context rows, filled where the graph number is out of range. -/
theorem W2_v0 (c : Dev nD) : W2 m ρ c (Proc.devRef .tc main_v0) = (select (broadcastInDim S500000x128 ![0] bcast_S500000_S500000x128_0 (Host.reduce IntOp.andi (andi (cmpi .sge (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 1024#32))) (m ((c : Thread nD τ).loc main_arg1)))) (broadcastInDim S500000x1 ![] bcast_S_S500000x1 (constantI S_ 32 0#32))) (cmpi .sle (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 1024#32))) (m ((c : Thread nD τ).loc main_arg1)))) (broadcastInDim S500000x1 ![0, 1] bcast_S1x1_S500000x1_0_1 (broadcastInDim S1x1 ![1] bcast_S1_S1x1_1 (constantI S1 32 1023#32))))) (constantI S_ 1 1#1) reducesTo_S500000x1_S500000_d1 h_S_)) (Host.gather gather_S1024x128_S500000x1_S500000x128_1_0_n_n_0_1_1128 (m ((c : Thread nD τ).loc main_arg2)) (broadcastInDim S500000x1 ![0] bcast_S500000_S500000x1_0 (select (cmpi .slt (m ((c : Thread nD τ).loc main_arg1)) (broadcastInDim S500000 ![] bcast_S_S500000 (constantI S_ 32 0#32))) (addi (m ((c : Thread nD τ).loc main_arg1)) (broadcastInDim S500000 ![] bcast_S_S500000 (constantI S_ 32 1024#32))) (m ((c : Thread nD τ).loc main_arg1))))) (broadcastInDim S500000x128 ![] bcast_S_S500000x128 (constant S_ .f32 0x7FC00000#32))) := by
  show StableHlo.after hostOps0_1 (StableHlo.after hostOps0 (W0 m ρ c)) (Proc.devRef .tc main_v0) = _
  after_results_simp
  simp only [cast_eq]

/-! ## At the gate region's exit -/

theorem W3_arg1 (c : Dev nD) : W3 m ρ c (Proc.devRef .tc main_arg1) = (m ((c : Thread nD τ).loc main_arg1)) :=
  (W3_of_ne m ρ c main_arg1 (by decide)).trans (by
    show StableHlo.after hostOps0_1 (StableHlo.after hostOps0 (W0 m ρ c)) (Proc.devRef .tc main_arg1) = _
    after_results <;> rfl)

theorem W3_arg2 (c : Dev nD) : W3 m ρ c (Proc.devRef .tc main_arg2) = (m ((c : Thread nD τ).loc main_arg2)) :=
  (W3_of_ne m ρ c main_arg2 (by decide)).trans (by
    show StableHlo.after hostOps0_1 (StableHlo.after hostOps0 (W0 m ρ c)) (Proc.devRef .tc main_arg2) = _
    after_results <;> rfl)

theorem W3_arg5 (c : Dev nD) : W3 m ρ c (Proc.devRef .tc main_arg5) = (m ((c : Thread nD τ).loc main_arg5)) :=
  (W3_of_ne m ρ c main_arg5 (by decide)).trans (by
    show StableHlo.after hostOps0_1 (StableHlo.after hostOps0 (W0 m ρ c)) (Proc.devRef .tc main_arg5) = _
    after_results <;> rfl)

theorem W3_arg6 (c : Dev nD) : W3 m ρ c (Proc.devRef .tc main_arg6) = (m ((c : Thread nD τ).loc main_arg6)) :=
  (W3_of_ne m ρ c main_arg6 (by decide)).trans (by
    show StableHlo.after hostOps0_1 (StableHlo.after hostOps0 (W0 m ρ c)) (Proc.devRef .tc main_arg6) = _
    after_results <;> rfl)

theorem W3_arg7 (c : Dev nD) : W3 m ρ c (Proc.devRef .tc main_arg7) = (m ((c : Thread nD τ).loc main_arg7)) :=
  (W3_of_ne m ρ c main_arg7 (by decide)).trans (by
    show StableHlo.after hostOps0_1 (StableHlo.after hostOps0 (W0 m ρ c)) (Proc.devRef .tc main_arg7) = _
    after_results <;> rfl)

theorem W3_arg8 (c : Dev nD) : W3 m ρ c (Proc.devRef .tc main_arg8) = (m ((c : Thread nD τ).loc main_arg8)) :=
  (W3_of_ne m ρ c main_arg8 (by decide)).trans (by
    show StableHlo.after hostOps0_1 (StableHlo.after hostOps0 (W0 m ρ c)) (Proc.devRef .tc main_arg8) = _
    after_results <;> rfl)

theorem W3_v7_0 (c : Dev nD) : W3 m ρ c (Proc.devRef .tc main_v7_0) = (dat0 (V2 m ρ) c).arrAt 5 cfg0.N := W3_arr m ρ c 5

theorem W3_v7_1 (c : Dev nD) : W3 m ρ c (Proc.devRef .tc main_v7_1) = (dat0 (V2 m ρ) c).arrAt 6 cfg0.N := W3_arr m ρ c 6

/-! ## At the GRU region's entry -/

/-- The pooled gated features: the accumulating scatter of the gate region's first output along the graph numbers. -/
theorem W4_v11 (c : Dev nD) : W4 m ρ c (Proc.devRef .tc main_v11)
    = Host.scatterAdd scatter_S1024x128_S500000x1_S500000x128_1_0_0_1 (broadcastInDim S1024x128 ![] bcast_S_S1024x128 (constant S_ .f32 0x00000000#32)) (broadcastInDim S500000x1 ![0] bcast_S500000_S500000x1_0 (m ((c : Thread nD τ).loc main_arg1))) ((dat0 (V2 m ρ) c).arrAt 5 cfg0.N) := by
  show StableHlo.after hostOps1 (W3 m ρ c) (Proc.devRef .tc main_v11) = _
  after_results
  rw [W3_arg1, W3_v7_0]

theorem W4_arg2 (c : Dev nD) : W4 m ρ c (Proc.devRef .tc main_arg2) = (m ((c : Thread nD τ).loc main_arg2)) := by
  show StableHlo.after hostOps1 (W3 m ρ c) (Proc.devRef .tc main_arg2) = _
  after_results
  exact W3_arg2 m ρ c

theorem W4_arg7 (c : Dev nD) : W4 m ρ c (Proc.devRef .tc main_arg7) = (m ((c : Thread nD τ).loc main_arg7)) := by
  show StableHlo.after hostOps1 (W3 m ρ c) (Proc.devRef .tc main_arg7) = _
  after_results
  exact W3_arg7 m ρ c

theorem W4_arg8 (c : Dev nD) : W4 m ρ c (Proc.devRef .tc main_arg8) = (m ((c : Thread nD τ).loc main_arg8)) := by
  show StableHlo.after hostOps1 (W3 m ρ c) (Proc.devRef .tc main_arg8) = _
  after_results
  exact W3_arg8 m ρ c

theorem W4_v24 (c : Dev nD) : W4 m ρ c (Proc.devRef .tc main_v24) = transpose S128x384 [1, 0] (m ((c : Thread nD τ).loc main_arg5)) transposes_S384x128_S128x384_1_0 := by
  show StableHlo.after hostOps1 (W3 m ρ c) (Proc.devRef .tc main_v24) = _
  after_results
  rw [W3_arg5]

theorem W4_v25 (c : Dev nD) : W4 m ρ c (Proc.devRef .tc main_v25) = transpose S128x384 [1, 0] (m ((c : Thread nD τ).loc main_arg6)) transposes_S384x128_S128x384_1_0 := by
  show StableHlo.after hostOps1 (W3 m ρ c) (Proc.devRef .tc main_v25) = _
  after_results
  rw [W3_arg6]

set_option maxHeartbeats 4000000 in
/-- The gate statistic: the mean over graphs of pooled gate length over max(node count, 1). -/
theorem W4_v23 (c : Dev nD) : W4 m ρ c (Proc.devRef .tc main_v23)
    = Host.divf (Host.reduceAdd (Host.divf (Host.scatterAdd scatter_S1024_S500000x1_S500000_n_0_0_1 (broadcastInDim S1024 ![] bcast_S_S1024 (constant S_ .f32 0x00000000#32)) (broadcastInDim S500000x1 ![0] bcast_S500000_S500000x1_0 (m ((c : Thread nD τ).loc main_arg1))) (fun i => shapeCast S500000 ((dat0 (V2 m ρ) c).arrAt 6 cfg0.N) shapeCasts_S500000x1_S500000 i)) (maximumf (Host.scatterAdd scatter_S1024_S500000x1_S500000_n_0_0_1 (broadcastInDim S1024 ![] bcast_S_S1024 (constant S_ .f32 0x00000000#32)) (broadcastInDim S500000x1 ![0] bcast_S500000_S500000x1_0 (m ((c : Thread nD τ).loc main_arg1))) (broadcastInDim S500000 ![] bcast_S_S500000 (constant S_ .f32 0x3F800000#32))) (broadcastInDim S1024 ![] bcast_S_S1024 (constant S_ .f32 0x3F800000#32)))) (constant S_ .f32 0x00000000#32) reducesTo_S1024_S_d0 h_S_) (constant S_ .f32 0x44800000#32) := by
  show StableHlo.after hostOps1 (W3 m ρ c) (Proc.devRef .tc main_v23) = _
  after_results_simp
  rw [W3_arg1, W3_v7_1]
  rfl

/-! ## The two results -/

theorem W5_v26 (c : Dev nD) : W5 m ρ c (Proc.devRef .tc main_v26) = (dat1 (V4 m ρ) c).arrAt 6 cfg1.N := W5_arr m ρ c 6

theorem W5_v23 (c : Dev nD) : W5 m ρ c (Proc.devRef .tc main_v23) = W4 m ρ c (Proc.devRef .tc main_v23) :=
  W5_of_ne m ρ c main_v23 (by decide)

end Cert.KernelIdeal.HostValue

end
-- ==== Proof.Blocks.lean ====
/-
  From blocks to arrays, for both regions of the idealized kernel.

  The gate region visits 50 grid points; at point t its two row-blocked inputs (the node features and the gathered
  context) and its two outputs are the rows 10000 t … 10000 t + 9999 of their arrays, all 128 (or 1) columns, and
  its weight blocks and bias are whole arrays.  Every point writes its output blocks back, and the blocks tile the
  arrays, so a property that every written-back element has, stated at the element's position in the array, is a
  property of every element of the arrays the region leaves.  The GRU region has one point and every window is its
  whole array, so the array it leaves is what the body stores, of the arrays it finds.
-/
import proofs.«138824_j50190987821195_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The gate region's index maps, decided once over the grid -/

/-- At point t the row-blocked windows sit at block row t, block column 0; the whole-array windows at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of point t's block is row 10000 t + r of the array. -/
def row (t : Fin cfg0.N) (r : Fin 10000) : Fin 500000 :=
  ⟨10000 * t.val + r.val, by have h : t.val < 50 := Nat.lt_of_lt_of_eq t.isLt N_0
                             have := r.isLt; omega⟩

/-! ## The input blocks read at an entry -/

theorem iblk0_0_apply (c : Dev nD) (t : Fin cfg0.N) (r : Fin 10000) (j : Fin 128) :
    iblk0 V c 0 t (ix2 r j) = V c main_arg0 (ix2 (row t r) j) := by
  obtain ⟨e0, e1, -⟩ := idx_facts0 t
  show V c main_arg0 (((cfg0.win 0).blk t).view.emb (ix2 r j)) = V c main_arg0 (ix2 (row t r) j)
  refine congrArg (V c main_arg0) (funext fun a => Fin.ext ?_)
  match a with
  | ⟨0, _⟩ => show win0_0.index t (0 : Fin 2) * 10000 + 1 * r.val = 10000 * t.val + r.val; omega
  | ⟨1, _⟩ => show win0_0.index t (1 : Fin 2) * 128 + 1 * j.val = j.val; omega

theorem iblk0_1_apply (c : Dev nD) (t : Fin cfg0.N) (r : Fin 10000) (j : Fin 128) :
    iblk0 V c 1 t (ix2 r j) = V c main_v0 (ix2 (row t r) j) := by
  obtain ⟨-, -, e0, e1, -⟩ := idx_facts0 t
  show V c main_v0 (((cfg0.win 1).blk t).view.emb (ix2 r j)) = V c main_v0 (ix2 (row t r) j)
  refine congrArg (V c main_v0) (funext fun a => Fin.ext ?_)
  match a with
  | ⟨0, _⟩ => show win0_1.index t (0 : Fin 2) * 10000 + 1 * r.val = 10000 * t.val + r.val; omega
  | ⟨1, _⟩ => show win0_1.index t (1 : Fin 2) * 128 + 1 * j.val = j.val; omega

theorem iblk0_2_apply (c : Dev nD) (t : Fin cfg0.N) (j k : Fin 128) :
    iblk0 V c 2 t (ix2 j k) = V c main_v3 (ix2 j k) := by
  obtain ⟨-, -, -, -, e0, e1, -⟩ := idx_facts0 t
  show V c main_v3 (((cfg0.win 2).blk t).view.emb (ix2 j k)) = V c main_v3 (ix2 j k)
  refine congrArg (V c main_v3) (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

theorem iblk0_3_apply (c : Dev nD) (t : Fin cfg0.N) (j k : Fin 128) :
    iblk0 V c 3 t (ix2 j k) = V c main_v6 (ix2 j k) := by
  obtain ⟨-, -, -, -, -, -, e0, e1, -⟩ := idx_facts0 t
  show V c main_v6 (((cfg0.win 3).blk t).view.emb (ix2 j k)) = V c main_v6 (ix2 j k)
  refine congrArg (V c main_v6) (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem iblk0_4_apply (c : Dev nD) (t : Fin cfg0.N) (k : Fin 128) :
    iblk0 V c 4 t (ix1 k) = V c main_arg4 (ix1 k) := by
  obtain ⟨-, -, -, -, -, -, -, -, e0, -⟩ := idx_facts0 t
  show V c main_arg4 (((cfg0.win 4).blk t).view.emb (ix1 k)) = V c main_arg4 (ix1 k)
  refine congrArg (V c main_arg4) (funext fun a => Fin.ext ?_)
  match a with
  | ⟨0, _⟩ => show win0_4.index t (0 : Fin 1) * 128 + 1 * k.val = k.val; omega

/-! ## From written-back elements to the arrays the gate region leaves -/

/-- An index of a [500000, c] array lies in the row block of point t iff its row is one of the block's 10000 rows. -/
theorem mem_blk5 (t : Fin cfg0.N) (i : S500000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v7_0).slice (win0_5.rect t)).set ↔ _
  rw [View.set_slice_whole, Rect.mem_set_unit]
  exact Iff.rfl

theorem mem_blk6 (t : Fin cfg0.N) (i : S500000x1.Idx) :
    i ∈ ((cfg0.win 6).blk t).view.set ↔ ∀ a : Fin 2, win0_6.index t a * S10000x1.size a ≤ (i a).val ∧ (i a).val < win0_6.index t a * S10000x1.size a + S10000x1.size a := by
  show i ∈ ((View.whole main_v7_1).slice (win0_6.rect t)).set ↔ _
  rw [View.set_slice_whole, Rect.mem_set_unit]
  exact Iff.rfl

/-- The point whose block holds row e is e / 10000. -/
def pointOf (e : Fin 500000) : Fin cfg0.N :=
  ⟨e.val / 10000, Nat.lt_of_lt_of_eq (by have := e.isLt; omega) N_0.symm⟩

theorem cover5 (i : S500000x128.Idx) : ∃ t : Fin cfg0.N, (cfg0.win 5).flush t = true ∧ i ∈ ((cfg0.win 5).blk t).view.set := by
  have hi0 : (i 0).val < 500000 := (i 0).isLt
  have hi1 : (i 1).val < 128 := (i 1).isLt
  refine ⟨pointOf ⟨(i 0).val, hi0⟩, flush0_5 _, ?_⟩
  obtain ⟨-, -, -, -, -, -, -, -, -, e0, e1, -⟩ := idx_facts0 (pointOf ⟨(i 0).val, hi0⟩)
  have hp : (pointOf ⟨(i 0).val, hi0⟩).val = (i 0).val / 10000 := rfl
  rw [mem_blk5]
  intro a
  match a with
  | ⟨0, _⟩ => show win0_5.index _ (0 : Fin 2) * 10000 ≤ (i 0).val ∧ (i 0).val < win0_5.index _ (0 : Fin 2) * 10000 + 10000; omega
  | ⟨1, _⟩ => show win0_5.index _ (1 : Fin 2) * 128 ≤ (i 1).val ∧ (i 1).val < win0_5.index _ (1 : Fin 2) * 128 + 128; omega

theorem cover6 (i : S500000x1.Idx) : ∃ t : Fin cfg0.N, (cfg0.win 6).flush t = true ∧ i ∈ ((cfg0.win 6).blk t).view.set := by
  have hi0 : (i 0).val < 500000 := (i 0).isLt
  have hi1 : (i 1).val < 1 := (i 1).isLt
  refine ⟨pointOf ⟨(i 0).val, hi0⟩, flush0_6 _, ?_⟩
  obtain ⟨-, -, -, -, -, -, -, -, -, -, -, e0, e1⟩ := idx_facts0 (pointOf ⟨(i 0).val, hi0⟩)
  have hp : (pointOf ⟨(i 0).val, hi0⟩).val = (i 0).val / 10000 := rfl
  rw [mem_blk6]
  intro a
  match a with
  | ⟨0, _⟩ => show win0_6.index _ (0 : Fin 2) * 10000 ≤ (i 0).val ∧ (i 0).val < win0_6.index _ (0 : Fin 2) * 10000 + 10000; omega
  | ⟨1, _⟩ => show win0_6.index _ (1 : Fin 2) * 1 ≤ (i 1).val ∧ (i 1).val < win0_6.index _ (1 : Fin 2) * 1 + 1; omega

/-- A property of every gated-feature entry the body stores, stated at the entry's place in the array, holds of
    every entry of the gated-feature array the region leaves. -/
theorem arr5_forall (c : Dev nD) (Q : S500000x128.Idx → EReal → Prop)
    (hQ : ∀ (t : Fin cfg0.N) (r : Fin 10000) (k : Fin 128),
      Q (ix2 (row t r) k) (out0_5 (F := Ideal) (iblk0 V c 0 t) (iblk0 V c 1 t) (iblk0 V c 2 t) (iblk0 V c 3 t) (iblk0 V c 4 t) (ix2 r k)))
    (i : S500000x128.Idx) : Q i ((dat0 V c).arrAt 5 cfg0.N i) := by
  refine (dat0 V c).arrAt_forall_of_cover 5 Q (fun t _ y => ?_) cover5 i
  obtain ⟨r, k, rfl⟩ : ∃ (r : Fin 10000) (k : Fin 128), y = ix2 r k := ⟨y 0, y 1, eq_ix2 y⟩
  obtain ⟨-, -, -, -, -, -, -, -, -, e0, e1, -⟩ := idx_facts0 t
  have hemb : ((cfg0.win 5).blk t).view.emb (ix2 r k) = ix2 (row t r) k := funext fun a => Fin.ext (by
    match a with
    | ⟨0, _⟩ => show win0_5.index t (0 : Fin 2) * 10000 + 1 * r.val = 10000 * t.val + r.val; omega
    | ⟨1, _⟩ => show win0_5.index t (1 : Fin 2) * 128 + 1 * k.val = k.val; omega)
  rw [hemb]
  show Q (ix2 (row t r) k) ((cfg0.win 5).cut (grid0.coords t) ((dat0 V c).after 5 t) (ix2 r k))
  rw [after0_5]
  exact hQ t r k

/-- The same for the per-node gate lengths, a [500000, 1] array. -/
theorem arr6_forall (c : Dev nD) (Q : S500000x1.Idx → EReal → Prop)
    (hQ : ∀ (t : Fin cfg0.N) (r : Fin 10000),
      Q (ix2 (row t r) (0 : Fin 1)) (out0_6 (F := Ideal) (iblk0 V c 0 t) (iblk0 V c 1 t) (iblk0 V c 2 t) (iblk0 V c 3 t) (iblk0 V c 4 t) (ix2 r (0 : Fin 1))))
    (i : S500000x1.Idx) : Q i ((dat0 V c).arrAt 6 cfg0.N i) := by
  refine (dat0 V c).arrAt_forall_of_cover 6 Q (fun t _ y => ?_) cover6 i
  obtain ⟨r, k, rfl⟩ : ∃ (r : Fin 10000) (k : Fin 1), y = ix2 r k := ⟨y 0, y 1, eq_ix2 y⟩
  obtain rfl : k = 0 := Subsingleton.elim _ _
  obtain ⟨-, -, -, -, -, -, -, -, -, -, -, e0, e1⟩ := idx_facts0 t
  have hemb : ((cfg0.win 6).blk t).view.emb (ix2 r (0 : Fin 1)) = ix2 (row t r) (0 : Fin 1) := funext fun a => Fin.ext (by
    match a with
    | ⟨0, _⟩ => show win0_6.index t (0 : Fin 2) * 10000 + 1 * r.val = 10000 * t.val + r.val; omega
    | ⟨1, _⟩ => show win0_6.index t (1 : Fin 2) * 1 + 1 * 0 = 0; omega)
  rw [hemb]
  show Q (ix2 (row t r) (0 : Fin 1)) ((cfg0.win 6).cut (grid0.coords t) ((dat0 V c).after 6 t) (ix2 r (0 : Fin 1)))
  rw [after0_6]
  exact hQ t r

/-! ## The GRU region: one point, every window its whole array -/

/-- At the region's one point every window sits at block 0 on every axis. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = 0 ∧ win1_6.index t (1 : Fin 2) = 0 :=
  (by decide +kernel : ∀ t : Fin grid1.N, _)

theorem iblk1_0_eq (c : Dev nD) (t : Fin cfg1.N) : iblk1 V c 0 t = V c main_v11 := funext fun y => by
  obtain ⟨p, q, rfl⟩ : ∃ (p : Fin 1024) (q : Fin 128), y = ix2 p q := ⟨y 0, y 1, eq_ix2 y⟩
  obtain ⟨e0, e1, -⟩ := idx_facts1 t
  show V c main_v11 (((cfg1.win 0).blk t).view.emb (ix2 p q)) = V c main_v11 (ix2 p q)
  refine congrArg (V c main_v11) (funext fun a => Fin.ext ?_)
  match a with
  | ⟨0, _⟩ => show win1_0.index t (0 : Fin 2) * 1024 + 1 * p.val = p.val; omega
  | ⟨1, _⟩ => show win1_0.index t (1 : Fin 2) * 128 + 1 * q.val = q.val; omega

theorem iblk1_1_eq (c : Dev nD) (t : Fin cfg1.N) : iblk1 V c 1 t = V c main_arg2 := funext fun y => by
  obtain ⟨p, q, rfl⟩ : ∃ (p : Fin 1024) (q : Fin 128), y = ix2 p q := ⟨y 0, y 1, eq_ix2 y⟩
  obtain ⟨-, -, e0, e1, -⟩ := idx_facts1 t
  show V c main_arg2 (((cfg1.win 1).blk t).view.emb (ix2 p q)) = V c main_arg2 (ix2 p q)
  refine congrArg (V c main_arg2) (funext fun a => Fin.ext ?_)
  match a with
  | ⟨0, _⟩ => show win1_1.index t (0 : Fin 2) * 1024 + 1 * p.val = p.val; omega
  | ⟨1, _⟩ => show win1_1.index t (1 : Fin 2) * 128 + 1 * q.val = q.val; omega

theorem iblk1_2_eq (c : Dev nD) (t : Fin cfg1.N) : iblk1 V c 2 t = V c main_v24 := funext fun y => by
  obtain ⟨p, q, rfl⟩ : ∃ (p : Fin 128) (q : Fin 384), y = ix2 p q := ⟨y 0, y 1, eq_ix2 y⟩
  obtain ⟨-, -, -, -, e0, e1, -⟩ := idx_facts1 t
  show V c main_v24 (((cfg1.win 2).blk t).view.emb (ix2 p q)) = V c main_v24 (ix2 p q)
  refine congrArg (V c main_v24) (funext fun a => Fin.ext ?_)
  match a with
  | ⟨0, _⟩ => show win1_2.index t (0 : Fin 2) * 128 + 1 * p.val = p.val; omega
  | ⟨1, _⟩ => show win1_2.index t (1 : Fin 2) * 384 + 1 * q.val = q.val; omega

theorem iblk1_3_eq (c : Dev nD) (t : Fin cfg1.N) : iblk1 V c 3 t = V c main_v25 := funext fun y => by
  obtain ⟨p, q, rfl⟩ : ∃ (p : Fin 128) (q : Fin 384), y = ix2 p q := ⟨y 0, y 1, eq_ix2 y⟩
  obtain ⟨-, -, -, -, -, -, e0, e1, -⟩ := idx_facts1 t
  show V c main_v25 (((cfg1.win 3).blk t).view.emb (ix2 p q)) = V c main_v25 (ix2 p q)
  refine congrArg (V c main_v25) (funext fun a => Fin.ext ?_)
  match a with
  | ⟨0, _⟩ => show win1_3.index t (0 : Fin 2) * 128 + 1 * p.val = p.val; omega
  | ⟨1, _⟩ => show win1_3.index t (1 : Fin 2) * 384 + 1 * q.val = q.val; omega

theorem iblk1_4_eq (c : Dev nD) (t : Fin cfg1.N) : iblk1 V c 4 t = V c main_arg7 := funext fun y => by
  obtain ⟨p, rfl⟩ : ∃ (p : Fin 384), y = ix1 p := ⟨y 0, eq_ix1 y⟩
  obtain ⟨-, -, -, -, -, -, -, -, e0, -⟩ := idx_facts1 t
  show V c main_arg7 (((cfg1.win 4).blk t).view.emb (ix1 p)) = V c main_arg7 (ix1 p)
  refine congrArg (V c main_arg7) (funext fun a => Fin.ext ?_)
  match a with
  | ⟨0, _⟩ => show win1_4.index t (0 : Fin 1) * 384 + 1 * p.val = p.val; omega

theorem iblk1_5_eq (c : Dev nD) (t : Fin cfg1.N) : iblk1 V c 5 t = V c main_arg8 := funext fun y => by
  obtain ⟨p, rfl⟩ : ∃ (p : Fin 384), y = ix1 p := ⟨y 0, eq_ix1 y⟩
  obtain ⟨-, -, -, -, -, -, -, -, -, e0, -⟩ := idx_facts1 t
  show V c main_arg8 (((cfg1.win 5).blk t).view.emb (ix1 p)) = V c main_arg8 (ix1 p)
  refine congrArg (V c main_arg8) (funext fun a => Fin.ext ?_)
  match a with
  | ⟨0, _⟩ => show win1_5.index t (0 : Fin 1) * 384 + 1 * p.val = p.val; omega

theorem mem_blk1_6 (t : Fin cfg1.N) (i : S1024x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v26).slice (win1_6.rect t)).set ↔ _
  rw [View.set_slice_whole, Rect.mem_set_unit]
  exact Iff.rfl

theorem cover1_6' (i : S1024x128.Idx) : ∃ t : Fin cfg1.N, (cfg1.win 6).flush t = true ∧ i ∈ ((cfg1.win 6).blk t).view.set := by
  have hi0 : (i 0).val < 1024 := (i 0).isLt
  have hi1 : (i 1).val < 128 := (i 1).isLt
  refine ⟨t1_0, flush1_6 _, ?_⟩
  obtain ⟨-, -, -, -, -, -, -, -, -, -, e0, e1⟩ := idx_facts1 t1_0
  rw [mem_blk1_6]
  intro a
  match a with
  | ⟨0, _⟩ => show win1_6.index _ (0 : Fin 2) * 1024 ≤ (i 0).val ∧ (i 0).val < win1_6.index _ (0 : Fin 2) * 1024 + 1024; omega
  | ⟨1, _⟩ => show win1_6.index _ (1 : Fin 2) * 128 ≤ (i 1).val ∧ (i 1).val < win1_6.index _ (1 : Fin 2) * 128 + 128; omega

/-- The array the GRU region leaves is what its body stores, of the arrays the region finds. -/
theorem arr1_6 (c : Dev nD) (i : S1024x128.Idx) :
    (dat1 V c).arrAt 6 cfg1.N i
      = out1_6 (F := Ideal) (V c main_v11) (V c main_arg2) (V c main_v24) (V c main_v25) (V c main_arg7) (V c main_arg8) i := by
  refine (dat1 V c).arrAt_forall_of_cover 6
    (fun i v => v = out1_6 (F := Ideal) (V c main_v11) (V c main_arg2) (V c main_v24) (V c main_v25) (V c main_arg7) (V c main_arg8) i)
    (fun t _ y => ?_) cover1_6' i
  obtain ⟨p, q, rfl⟩ : ∃ (p : Fin 1024) (q : Fin 128), y = ix2 p q := ⟨y 0, y 1, eq_ix2 y⟩
  obtain ⟨-, -, -, -, -, -, -, -, -, -, e0, e1⟩ := idx_facts1 t
  have hemb : ((cfg1.win 6).blk t).view.emb (ix2 p q) = ix2 p q := funext fun a => Fin.ext (by
    match a with
    | ⟨0, _⟩ => show win1_6.index t (0 : Fin 2) * 1024 + 1 * p.val = p.val; omega
    | ⟨1, _⟩ => show win1_6.index t (1 : Fin 2) * 128 + 1 * q.val = q.val; omega)
  rw [hemb]
  show (cfg1.win 6).cut (grid1.coords t) ((dat1 V c).after 6 t) (ix2 p q) = _
  rw [after1_6, iblk1_0_eq, iblk1_1_eq, iblk1_2_eq, iblk1_3_eq, iblk1_4_eq, iblk1_5_eq]
  rfl

end Cert.KernelIdeal.Blocks

end
-- ==== Proof.GruCell.lean ====
/-
  The GRU cell of the update step, as a function of whole arrays.

  With pooled features g and state h (both [1024, 128]), input and hidden weights wi, wh ([128, 384]) and biases
  bi, bh ([384]), put  gi = g · wi + bi  and  gh = h · wh + bh  (each [1024, 384], the bias spread over the rows),
  and cut each into three column blocks of width 128: (gi_r, gi_z, gi_n) and (gh_r, gh_z, gh_n). Then
      r = σ(gi_r + gh_r),   z = σ(gi_z + gh_z),   n = tanh(gi_n + r * gh_n),   result = (1 - z) * n + z * h,
  σ the logistic function. The reference computes this with a host matrix product and σ(t) = 1 / (1 + exp (-t))
  spelled out; the kernel's second region computes it with a matrix product into a zero accumulator and the
  logistic operation. At the ideal values (extended reals) the two are the same function of the six arrays.
-/
import proofs.«138824_j50190987821195_1_alg».proof.Proof.Gen.KernelIdeal.Frame
import proofs.«138824_j50190987821195_1_alg».proof.Proof.Gen.ReferenceIdeal.Run
import Idealize.ShloMosaic.Lib.ValueIdx
import Idealize.ShloMosaic.Lib.Pipeline.Value
import Idealize.ShloMosaic.Lib.ValueLayout
import Idealize.ShloMosaic.PureOps.Ideal.Laws

noncomputable section

namespace Cert.GruCell

open Cert.ReferenceIdeal Cert.ReferenceIdeal.Gen Idealize.ShloMosaic Idealize.ShloMosaic.TcCoe Idealize.SL.Sem Idealize.ShloMosaic.StableHlo Idealize.ShloMosaic.ValueIdx

/-- The reference's GRU cell as a function of the pooled features `g`, the state `h`, the two (already transposed)
    weight matrices and the two bias rows. -/
def gruR (g h : FVec Ideal Cert.ReferenceIdeal.S1024x128 .f32) (wi wh : FVec Ideal Cert.ReferenceIdeal.S128x384 .f32)
    (bi bh : FVec Ideal Cert.ReferenceIdeal.S384 .f32) : FVec Ideal Cert.ReferenceIdeal.S1024x128 .f32 :=
  addf (mulf (subf (broadcastInDim S1024x128 ![] bcast_S_S1024x128 (constant S_ .f32 0x3F800000#32)) (Host.divf (broadcastInDim S1024x128 ![] bcast_S_S1024x128 (constant S_ .f32 0x3F800000#32)) (addf (broadcastInDim S1024x128 ![] bcast_S_S1024x128 (constant S_ .f32 0x3F800000#32)) (Host.exp (Host.negf (addf (extractStridedSlice S1024x128 ![0, 128] (addf (Host.dotGeneral dot_S1024x128_S128x384_S1024x384_1_0_0_1_n_n none g wi) (broadcastInDim S1024x384 ![0, 1] bcast_S1x384_S1024x384_0_1 (broadcastInDim S1x384 ![1] bcast_S384_S1x384_1 bi))) slices_S1024x384_S1024x128_0_128) (extractStridedSlice S1024x128 ![0, 128] (addf (Host.dotGeneral dot_S1024x128_S128x384_S1024x384_1_0_0_1_n_n none h wh) (broadcastInDim S1024x384 ![0, 1] bcast_S1x384_S1024x384_0_1 (broadcastInDim S1x384 ![1] bcast_S384_S1x384_1 bh))) slices_S1024x384_S1024x128_0_128))))))) (Host.tanh (addf (extractStridedSlice S1024x128 ![0, 256] (addf (Host.dotGeneral dot_S1024x128_S128x384_S1024x384_1_0_0_1_n_n none g wi) (broadcastInDim S1024x384 ![0, 1] bcast_S1x384_S1024x384_0_1 (broadcastInDim S1x384 ![1] bcast_S384_S1x384_1 bi))) slices_S1024x384_S1024x128_0_256) (mulf (Host.divf (broadcastInDim S1024x128 ![] bcast_S_S1024x128 (constant S_ .f32 0x3F800000#32)) (addf (broadcastInDim S1024x128 ![] bcast_S_S1024x128 (constant S_ .f32 0x3F800000#32)) (Host.exp (Host.negf (addf (extractStridedSlice S1024x128 ![0, 0] (addf (Host.dotGeneral dot_S1024x128_S128x384_S1024x384_1_0_0_1_n_n none g wi) (broadcastInDim S1024x384 ![0, 1] bcast_S1x384_S1024x384_0_1 (broadcastInDim S1x384 ![1] bcast_S384_S1x384_1 bi))) slices_S1024x384_S1024x128_0_0) (extractStridedSlice S1024x128 ![0, 0] (addf (Host.dotGeneral dot_S1024x128_S128x384_S1024x384_1_0_0_1_n_n none h wh) (broadcastInDim S1024x384 ![0, 1] bcast_S1x384_S1024x384_0_1 (broadcastInDim S1x384 ![1] bcast_S384_S1x384_1 bh))) slices_S1024x384_S1024x128_0_0)))))) (extractStridedSlice S1024x128 ![0, 256] (addf (Host.dotGeneral dot_S1024x128_S128x384_S1024x384_1_0_0_1_n_n none h wh) (broadcastInDim S1024x384 ![0, 1] bcast_S1x384_S1024x384_0_1 (broadcastInDim S1x384 ![1] bcast_S384_S1x384_1 bh))) slices_S1024x384_S1024x128_0_256))))) (mulf (Host.divf (broadcastInDim S1024x128 ![] bcast_S_S1024x128 (constant S_ .f32 0x3F800000#32)) (addf (broadcastInDim S1024x128 ![] bcast_S_S1024x128 (constant S_ .f32 0x3F800000#32)) (Host.exp (Host.negf (addf (extractStridedSlice S1024x128 ![0, 128] (addf (Host.dotGeneral dot_S1024x128_S128x384_S1024x384_1_0_0_1_n_n none g wi) (broadcastInDim S1024x384 ![0, 1] bcast_S1x384_S1024x384_0_1 (broadcastInDim S1x384 ![1] bcast_S384_S1x384_1 bi))) slices_S1024x384_S1024x128_0_128) (extractStridedSlice S1024x128 ![0, 128] (addf (Host.dotGeneral dot_S1024x128_S128x384_S1024x384_1_0_0_1_n_n none h wh) (broadcastInDim S1024x384 ![0, 1] bcast_S1x384_S1024x384_0_1 (broadcastInDim S1x384 ![1] bcast_S384_S1x384_1 bh))) slices_S1024x384_S1024x128_0_128)))))) h)

/-- The pooled features the reference feeds its GRU cell: the gated node features summed per graph. -/
def pooledR {F : FTy → Type} [FloatOps F] (m : (ℓ : Loc nD τ sig) → Buf (Elt F) ℓ) (c : Dev nD) : FVec F Cert.ReferenceIdeal.S1024x128 .f32 :=
  (Host.scatterAdd scatter_S1024x128_S500000x1_S500000x128_1_0_0_1 (broadcastInDim S1024x128 ![] bcast_S_S1024x128 (constant S_ .f32 0x00000000#32)) (broadcastInDim S500000x1 ![0] bcast_S500000_S500000x1_0 (m ((c.tc : Thread nD τ).loc main_arg1))) (mulf (Host.divf (broadcastInDim S500000x128 ![] bcast_S_S500000x128 (constant S_ .f32 0x3F800000#32)) (addf (broadcastInDim S500000x128 ![] bcast_S_S500000x128 (constant S_ .f32 0x3F800000#32)) (Host.exp (Host.negf (addf (Host.dotGeneral dot_S500000x256_S256x128_S500000x128_1_0_0_1_n_n none (concatenate S500000x256 1 [⟨S500000x128, (m ((c.tc : Thread nD τ).loc main_arg0))⟩, ⟨S500000x128, (Host.gather gather_S1024x128_S500000x1_S500000x128_1_0_n_n_0_1_1128 (m ((c.tc : Thread nD τ).loc main_arg2)) (broadcastInDim S500000x1 ![0] bcast_S500000_S500000x1_0 (select (cmpi .slt (m ((c.tc : Thread nD τ).loc main_arg1)) (broadcastInDim S500000 ![] bcast_S_S500000 (constantI S_ 32 0#32))) (addi (m ((c.tc : Thread nD τ).loc main_arg1)) (broadcastInDim S500000 ![] bcast_S_S500000 (constantI S_ 32 1024#32))) (m ((c.tc : Thread nD τ).loc main_arg1)))))⟩] concatenates_S500000x128_S500000x128_S500000x256_d1) (transpose S256x128 [1, 0] (m ((c.tc : Thread nD τ).loc main_arg3)) transposes_S128x256_S256x128_1_0)) (broadcastInDim S500000x128 ![0, 1] bcast_S1x128_S500000x128_0_1 (broadcastInDim S1x128 ![1] bcast_S128_S1x128_1 (m ((c.tc : Thread nD τ).loc main_arg4))))))))) (m ((c.tc : Thread nD τ).loc main_arg0))))

set_option maxRecDepth 8192 in
/-- The reference's first result is its GRU cell of the pooled features, the state, the transposed weights and the biases. -/
theorem res_eq (m : (ℓ : Loc nD τ sig) → Buf (Elt Ideal) ℓ) (c : Dev nD) :
    Cert.ReferenceIdeal.Value.res_main_v60 (F := Ideal) m c
      = gruR (pooledR (F := Ideal) m c) (m ((c.tc : Thread nD τ).loc main_arg2))
          (transpose S128x384 [1, 0] (m ((c.tc : Thread nD τ).loc main_arg5)) transposes_S384x128_S128x384_1_0)
          (transpose S128x384 [1, 0] (m ((c.tc : Thread nD τ).loc main_arg6)) transposes_S384x128_S128x384_1_0)
          (m ((c.tc : Thread nD τ).loc main_arg7)) (m ((c.tc : Thread nD τ).loc main_arg8)) := by
  unfold Cert.ReferenceIdeal.Value.res_main_v60 gruR pooledR
  rfl

/-! ## Small facts about whole arrays at the ideal values -/

/-- The word 0x3F800000 is the real number one. -/
theorem ofBits_one_f32 : Ideal.ofBits .f32 0x3F800000#32 = 1 := by
  simp [Ideal.ofBits, Ideal.ieee, -EReal.coe_mul]; norm_num

/-- A matrix product into the zero accumulator is the host's matrix product over the same dimension numbers,
    whatever the two precisions. -/
theorem matmul_zero_eq_dotGeneral {sl sr so : Shape} {φ₁ φ₂ : FTy} (D : DotDims sl sr so) (p p' : Option ContractPrecision)
    (l : FVec Ideal sl φ₁) (r : FVec Ideal sr φ₂) :
    matmul D p l r (constant so .f32 0x00000000#32) = Host.dotGeneral D p' l r :=
  funext fun j => (Ideal.matmul_constant_zero_apply D p l r j).trans (Ideal.dotGeneral_apply D p' .single l r j).symm

/-- The two programs' dimension numbers for [1024,128] × [128,384] are the same record. -/
theorem dot_eq : Cert.KernelIdeal.dot_S1024x128_S128x384_S1024x384_1_0_0_1_n_n
    = Cert.ReferenceIdeal.dot_S1024x128_S128x384_S1024x384_1_0_0_1_n_n := rfl

/-- A bias row [384] viewed as [1, 384] and spread over 1024 rows is the same array whichever of the two spellings
    builds it: entry (p, q) is the row's entry q. -/
theorem bias_eq (b : FVec Ideal S384 .f32) (h1 : S384.ShapeCasts S1x384) (h2 : S1x384.Broadcasts S1024x384)
    (h3 : S384.BroadcastsInDim S1x384 (![1] : Fin 1 → Fin S1x384.rank))
    (h4 : S1x384.BroadcastsInDim S1024x384 (![0, 1] : Fin 2 → Fin S1024x384.rank)) :
    broadcastTo S1024x384 (shapeCast S1x384 b h1) h2 = broadcastInDim S1024x384 ![0, 1] h4 (broadcastInDim S1x384 ![1] h3 b) := by
  funext j
  obtain ⟨p, q, rfl⟩ : ∃ (p : Fin 1024) (q : Fin 384), j = ix2 p q := ⟨j 0, j 1, eq_ix2 j⟩
  have hl : broadcastTo S1024x384 (shapeCast S1x384 b h1) h2 (ix2 p q) = b (ix1 q) := by
    refine (broadcastTo_apply (shapeCast S1x384 b h1) h2 (ix2 p q) (ix2 (0 : Fin 1) q) fun a => ?_).trans ?_
    · match a with
      | ⟨0, _⟩ => rfl
      | ⟨1, _⟩ => rfl
    · refine shapeCast_apply b h1 (ix2 (0 : Fin 1) q) (ix1 q) ?_
      rw [Shape.rowMajor_val_two, Shape.rowMajor_val_one]
      show q.val = 0 * 384 + q.val
      omega
  have hr : broadcastInDim S1024x384 ![0, 1] h4 (broadcastInDim S1x384 ![1] h3 b) (ix2 p q) = b (ix1 q) := by
    refine (broadcastInDim_apply ![0, 1] h4 (broadcastInDim S1x384 ![1] h3 b) (ix2 p q) (ix2 (0 : Fin 1) q) fun a => ?_).trans ?_
    · match a with
      | ⟨0, _⟩ => rfl
      | ⟨1, _⟩ => rfl
    · refine broadcastInDim_apply ![1] h3 b (ix2 (0 : Fin 1) q) (ix1 q) fun a => ?_
      match a with
      | ⟨0, _⟩ => rfl
  exact hl.trans hr.symm

/-- The all-ones array, read anywhere, is one. -/
theorem ones_apply {s : Shape} (h : S_.BroadcastsInDim s (![] : Fin 0 → Fin s.rank)) (i : s.Idx) :
    broadcastInDim s ![] h (constant (F := Ideal) S_ .f32 0x3F800000#32) i = 1 :=
  (broadcastInDim_apply ![] h (constant (F := Ideal) S_ .f32 0x3F800000#32) i ix0 fun a => a.elim0).trans ofBits_one_f32

/-- The logistic function of an array is one over one plus the exponential of its negation, entry by entry. -/
theorem logistic_eq {s : Shape} (h : S_.BroadcastsInDim s (![] : Fin 0 → Fin s.rank)) (t : FVec Ideal s .f32) :
    logistic t = Host.divf (broadcastInDim s ![] h (constant S_ .f32 0x3F800000#32))
      (addf (broadcastInDim s ![] h (constant S_ .f32 0x3F800000#32)) (Host.exp (Host.negf t))) := by
  funext i
  show Ideal.logistic (t i) = Ideal.div (broadcastInDim s ![] h (constant (F := Ideal) S_ .f32 0x3F800000#32) i)
    (broadcastInDim s ![] h (constant (F := Ideal) S_ .f32 0x3F800000#32) i + Ideal.exp (-(t i)))
  rw [ones_apply h i]
  rfl

/-- The hyperbolic tangent is the same function in both programs. -/
theorem tanh_eq {s : Shape} (t : FVec Ideal s .f32) : tanh t = Host.tanh t := rfl

/-- The scalar one spread over an array is the all-ones array. -/
theorem ones_eq {s : Shape} (h : S_.BroadcastsInDim s (![] : Fin 0 → Fin s.rank)) :
    broadcast s (Scalar.ofBits (F := Ideal) .f32 0x3F800000#32) = broadcastInDim s ![] h (constant S_ .f32 0x3F800000#32) :=
  funext fun i => (broadcastInDim_apply ![] h (constant (F := Ideal) S_ .f32 0x3F800000#32) i ix0 fun a => a.elim0).symm

/-- The kernel's GRU payload, on whole arrays, is the reference's GRU cell. -/
theorem pay_eq (g h : FVec Ideal Cert.ReferenceIdeal.S1024x128 .f32) (wi wh : FVec Ideal Cert.ReferenceIdeal.S128x384 .f32)
    (bi bh : FVec Ideal Cert.ReferenceIdeal.S384 .f32) :
    Cert.KernelIdeal.Gen.k1_pay1 (F := Ideal) g h wi bi wh bh = gruR g h wi wh bi bh := by
  unfold Cert.KernelIdeal.Gen.k1_pay1 gruR
  simp only [shapeCast_self, matmul_zero_eq_dotGeneral _ _ none, dot_eq,
    bias_eq _ _ _ bcast_S384_S1x384_1 bcast_S1x384_S1024x384_0_1, logistic_eq bcast_S_S1024x128, tanh_eq,
    ones_eq bcast_S_S1024x128]

/-! ## The kernel's second region on whole arrays -/

/-- The offsets of a rank-2 window that is its whole array are zero. -/
theorem off2_zero : (![0, 0] : Fin 2 → Nat) = fun _ => 0 := funext fun a => by fin_cases a <;> rfl

/-- The offsets of a rank-1 window that is its whole array are zero. -/
theorem off1_zero : (![0] : Fin 1 → Nat) = fun _ => 0 := funext fun a => by fin_cases a; rfl

/-- The second region's output buffer after the body, every window being its whole array, is the reference's GRU cell
    of the six input arrays. -/
theorem out1_6_eq (g h : FVec Ideal Cert.ReferenceIdeal.S1024x128 .f32) (wi wh : FVec Ideal Cert.ReferenceIdeal.S128x384 .f32)
    (bi bh : FVec Ideal Cert.ReferenceIdeal.S384 .f32) :
    Cert.KernelIdeal.Gen.out1_6 (F := Ideal) g h wi wh bi bh = gruR g h wi wh bi bh := by
  unfold Cert.KernelIdeal.Gen.out1_6
  rw [View.canon_unit_zero off2_zero]
  simp only [View.ld_unit_zero (S := Cert.KernelIdeal.S1024x128) off2_zero,
    View.ld_unit_zero (S := Cert.KernelIdeal.S128x384) off2_zero, View.ld_unit_zero (S := Cert.KernelIdeal.S384) off1_zero]
  exact pay_eq g h wi wh bi bh

end Cert.GruCell

end
-- ==== Proof.GateSpec.lean ====
/-
  The gate of one node, written over rows.

  A node with feature row `xr` (128 entries) in a graph with context row `gr` (128 entries) is gated, channel by
  channel, by the logistic function of an affine form: the row `xr` against the first weight block, plus the row `gr`
  against the second weight block, plus a bias.  The node contributes the gated features `gate k * xr k` to its
  graph's pooled features and the Euclidean length of its gate vector to its graph's gate statistics.
  Everything here is over the extended reals, and no finiteness is assumed anywhere: the sums are sums in a
  commutative monoid and the logistic function and the square root are total.
-/
import Mathlib.Tactic
import Idealize.ShloMosaic.PureOps.Ideal

noncomputable section

open scoped BigOperators

namespace Cert.GateSpec

open Idealize.ShloMosaic

/-- The gate of a node at channel `k`: the logistic function of `xr · w1[:, k] + gr · w2[:, k] + b k`. -/
def gate (xr gr : Fin 128 → EReal) (w1 w2 : Fin 128 → Fin 128 → EReal) (b : Fin 128 → EReal) (k : Fin 128) : EReal :=
  Ideal.logistic ((∑ j : Fin 128, xr j * w1 j k) + (∑ j : Fin 128, gr j * w2 j k) + b k)

/-- The gated feature of a node at channel `k`. -/
def weighted (xr gr : Fin 128 → EReal) (w1 w2 : Fin 128 → Fin 128 → EReal) (b : Fin 128 → EReal) (k : Fin 128) : EReal :=
  gate xr gr w1 w2 b k * xr k

/-- The Euclidean length of a node's gate vector. -/
def norm (xr gr : Fin 128 → EReal) (w1 w2 : Fin 128 → Fin 128 → EReal) (b : Fin 128 → EReal) : EReal :=
  Ideal.sqrt (∑ k : Fin 128, gate xr gr w1 w2 b k * gate xr gr w1 w2 b k)

end Cert.GateSpec

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.GatePayload.lean ====
/-
  What the body of the first kernel region stores, read at one entry, over the extended reals.

  The body reads two [10000, 128] blocks of rows (node features and per-node context), two [128, 128] weight blocks and a
  bias row. It forms, row by row, the affine form  x · w1 + g · w2 + b,  applies the logistic function, and stores
  (i) the gate times the node's features, and (ii) per row the square root of the sum of the squared gates.
  Read at entry (r, k) the first is the gated feature of row r at channel k and, at (r, 0), the second is the Euclidean
  length of row r's gate vector: the row forms of the gate specification. The two weight blocks are the left and the right
  half of a [128, 256] matrix, each transposed: entry (j, k) of a block is entry (k, j) resp. (k, 128 + j) of the matrix.
-/
import proofs.«138824_j50190987821195_1_alg».proof.Proof.Gen.KernelIdeal.Frame
import proofs.«138824_j50190987821195_1_alg».proof.Proof.GateSpec
import proofs.«138824_j50190987821195_1_alg».proof.Proof.LibMatmulRowCol
import proofs.«138824_j50190987821195_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GatePayload

open Idealize.ShloMosaic Idealize.ShloMosaic.ValueIdx
open Cert.KernelIdeal Cert.KernelIdeal.Facts₀

/-! ## The matrix product's dimension numbers, by coordinates -/

theorem dot_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem dot_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem dot_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem dot_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- One of the body's two products, at (r, k): row r of the block against column k of the weight block. -/
theorem matmul_block (x : FVec Ideal S10000x128 .f32) (w : FVec Ideal S128x128 .bf16) (r : Fin 10000) (k : Fin 128) :
    matmul dot_S10000x128_S128x128_S10000x128_1_0_0_1_n_n none (truncf .bf16 x bitsLt_bf16_f32)
        (shapeCast S128x128 w shapeCasts_S128x128_S128x128) (constant (F := Ideal) S10000x128 .f32 0x00000000#32) (ix2 r k)
      = ∑ j : Fin 128, x (ix2 r j) * w (ix2 j k) := by
  rw [shapeCast_self]
  exact Cert.LibMatmul.matmul_rowcol dot_S10000x128_S128x128_S10000x128_1_0_0_1_n_n rfl rfl dot_lhs0 dot_lhs1 dot_rhs0 dot_rhs1
    (truncf .bf16 x bitsLt_bf16_f32) w r k

/-- The bias row, made a [1, 128] matrix and spread over the 10000 rows, at (r, k): the bias at k. -/
theorem bias_apply (b : FVec Ideal S128 .f32) (r : Fin 10000) (k : Fin 128) :
    broadcastTo S10000x128 (shapeCast S1x128 b shapeCasts_S128_S1x128) broadcasts_S1x128_S10000x128 (ix2 r k) = b (ix1 k) :=
  (broadcastTo_1b_ab_apply _ _ r k).trans (shapeCast_a_1a_apply b _ 0 k)

/-! ## The gate -/

/-- The body's gate block at (r, k) is the gate of row r at channel k. -/
theorem pay1_apply (x0 x1 : FVec Ideal S10000x128 .f32) (w1 w2 : FVec Ideal S128x128 .bf16) (b : FVec Ideal S128 .f32)
    (r : Fin 10000) (k : Fin 128) :
    Gen.k0_pay1 (F := Ideal) x0 x1 w1 w2 b (ix2 r k)
      = Cert.GateSpec.gate (fun j => x0 (ix2 r j)) (fun j => x1 (ix2 r j)) (fun j k' => w1 (ix2 j k')) (fun j k' => w2 (ix2 j k'))
          (fun k' => b (ix1 k')) k := by
  unfold Gen.k0_pay1 Cert.GateSpec.gate
  show Ideal.logistic
      ((matmul dot_S10000x128_S128x128_S10000x128_1_0_0_1_n_n none (truncf .bf16 x0 bitsLt_bf16_f32)
            (shapeCast S128x128 w1 shapeCasts_S128x128_S128x128) (constant (F := Ideal) S10000x128 .f32 0x00000000#32) (ix2 r k)
          + matmul dot_S10000x128_S128x128_S10000x128_1_0_0_1_n_n none
              (truncf .bf16 (shapeCast S10000x128 x1 shapeCasts_S10000x128_S10000x128) bitsLt_bf16_f32)
              (shapeCast S128x128 w2 shapeCasts_S128x128_S128x128) (constant (F := Ideal) S10000x128 .f32 0x00000000#32) (ix2 r k))
        + broadcastTo S10000x128 (shapeCast S1x128 b shapeCasts_S128_S1x128) broadcasts_S1x128_S10000x128 (ix2 r k)) = _
  rw [shapeCast_self x1, matmul_block, matmul_block, bias_apply]

/-! ## The two stored blocks -/

theorem zeros2 : (![0, 0] : Fin 2 → Nat) = fun _ => 0 := funext fun a => by fin_cases a <;> rfl
theorem zeros1 : (![0] : Fin 1 → Nat) = fun _ => 0 := funext fun a => by fin_cases a; rfl

/-- The first output block after the body is the gated features, whole. -/
theorem out0_5_eq (x0 x1 : Vec Ideal S10000x128 .f32) (w1 w2 : Vec Ideal S128x128 .bf16) (b : Vec Ideal S128 .f32) :
    Gen.out0_5 (F := Ideal) x0 x1 w1 w2 b = Gen.k0_pay2 (F := Ideal) x0 x1 w1 w2 b := by
  unfold Gen.out0_5
  rw [View.canon_unit_zero zeros2]
  simp only [View.ld_unit_zero (S := S10000x128) zeros2, View.ld_unit_zero (S := S128x128) zeros2,
    View.ld_unit_zero (S := S128) zeros1]

/-- The second output block after the body is the gate lengths, whole. -/
theorem out0_6_eq (x0 x1 : Vec Ideal S10000x128 .f32) (w1 w2 : Vec Ideal S128x128 .bf16) (b : Vec Ideal S128 .f32) :
    Gen.out0_6 (F := Ideal) x0 x1 w1 w2 b = Gen.k0_pay3 (F := Ideal) x0 x1 w1 w2 b := by
  unfold Gen.out0_6
  rw [View.canon_unit_zero zeros2]
  simp only [View.ld_unit_zero (S := S10000x128) zeros2, View.ld_unit_zero (S := S128x128) zeros2,
    View.ld_unit_zero (S := S128) zeros1]

/-- Entry (r, k) of the first output block: the gated feature of row r at channel k. -/
theorem out0_5_apply (x0 x1 : Vec Ideal S10000x128 .f32) (w1 w2 : Vec Ideal S128x128 .bf16) (b : Vec Ideal S128 .f32)
    (r : Fin 10000) (k : Fin 128) :
    Gen.out0_5 (F := Ideal) x0 x1 w1 w2 b (ix2 r k)
      = Cert.GateSpec.weighted (fun j => x0 (ix2 r j)) (fun j => x1 (ix2 r j)) (fun j k' => w1 (ix2 j k')) (fun j k' => w2 (ix2 j k'))
          (fun k' => b (ix1 k')) k := by
  rw [out0_5_eq]
  unfold Gen.k0_pay2 Cert.GateSpec.weighted
  show Gen.k0_pay1 (F := Ideal) x0 x1 w1 w2 b (ix2 r k) * x0 (ix2 r k) = _
  rw [pay1_apply]

/-- The index a sum along the columns inserts: (r, k). -/
theorem lift_row (h : S10000x128.Reduces [1] S10000) (r : Fin 10000) (k : Fin 128) : h.lift (ix1 r) k = ix2 r k := by
  funext a; apply Fin.ext
  match a with
  | ⟨0, _⟩ => rfl
  | ⟨1, _⟩ => rfl

/-- Entry (r, 0) of the second output block: the Euclidean length of row r's gate vector. -/
theorem out0_6_apply (x0 x1 : Vec Ideal S10000x128 .f32) (w1 w2 : Vec Ideal S128x128 .bf16) (b : Vec Ideal S128 .f32)
    (r : Fin 10000) :
    Gen.out0_6 (F := Ideal) x0 x1 w1 w2 b (ix2 r (0 : Fin 1))
      = Cert.GateSpec.norm (fun j => x0 (ix2 r j)) (fun j => x1 (ix2 r j)) (fun j k' => w1 (ix2 j k')) (fun j k' => w2 (ix2 j k'))
          (fun k' => b (ix1 k')) := by
  rw [out0_6_eq]
  unfold Gen.k0_pay3 Cert.GateSpec.norm
  show Ideal.sqrt (shapeCast S10000x1
      (multiReduction (F := Ideal) .add [1] S10000 (mulf (Gen.k0_pay1 (F := Ideal) x0 x1 w1 w2 b) (Gen.k0_pay1 (F := Ideal) x0 x1 w1 w2 b))
        0x00000000#32 reduces_S10000x128_S10000 (.inl rfl) rfl)
      shapeCasts_S10000_S10000x1 (ix2 r (0 : Fin 1))) = _
  refine congrArg Ideal.sqrt ?_
  refine (Cert.Lib.Column.shapeCast_a_a1_apply _ _ r 0).trans ?_
  refine (Ideal.multiReduction_add_single _ _ _ _ _ (ix1 r)).trans ?_
  show ∑ k : Fin 128, _ = _
  refine Finset.sum_congr rfl fun k _ => ?_
  rw [lift_row]
  show Gen.k0_pay1 (F := Ideal) x0 x1 w1 w2 b (ix2 r k) * Gen.k0_pay1 (F := Ideal) x0 x1 w1 w2 b (ix2 r k) = _
  rw [pay1_apply]

/-! ## The weight blocks the host prepares -/

/-- The left half of the weight matrix, transposed: entry (j, k) is the matrix at (k, j). -/
theorem w1_apply (W : FVec Ideal S128x256 .f32) (j k : Fin 128) :
    truncf .bf16 (transpose S128x128 [1, 0] (extractStridedSlice S128x128 ![0, 0] W slices_S128x256_S128x128_0_0)
        transposes_S128x128_S128x128_1_0) bitsLt_bf16_f32 (ix2 j k)
      = W (ix2 k (⟨j.val, by omega⟩ : Fin 256)) := by
  show transpose S128x128 [1, 0] (extractStridedSlice S128x128 ![0, 0] W slices_S128x256_S128x128_0_0)
      transposes_S128x128_S128x128_1_0 (ix2 j k) = _
  refine (transpose_ix2_apply _ _ j k).trans ?_
  exact slice2_axis1_apply 0 W _ k j _ (Nat.zero_add _).symm

/-- The right half of the weight matrix, transposed: entry (j, k) is the matrix at (k, 128 + j). -/
theorem w2_apply (W : FVec Ideal S128x256 .f32) (j k : Fin 128) :
    truncf .bf16 (transpose S128x128 [1, 0] (extractStridedSlice S128x128 ![0, 128] W slices_S128x256_S128x128_0_128)
        transposes_S128x128_S128x128_1_0) bitsLt_bf16_f32 (ix2 j k)
      = W (ix2 k (⟨128 + j.val, by omega⟩ : Fin 256)) := by
  show transpose S128x128 [1, 0] (extractStridedSlice S128x128 ![0, 128] W slices_S128x256_S128x128_0_128)
      transposes_S128x128_S128x128_1_0 (ix2 j k) = _
  refine (transpose_ix2_apply _ _ j k).trans ?_
  exact slice2_axis1_apply 128 W _ k j _ rfl

end Cert.GatePayload

end
-- ==== Proof.LibDotGeneralRowCol.lean ====
/-
  A plain matrix product on the host, read at an entry, at the ideal values.

  For any dimension numbers over an [M, K] left operand, a [K, N] right operand and an [M, N] result that
  contract the left operand's second axis against the right operand's first (stated as four coordinate facts
  about the dimension numbers' operand indices, which a literal record proves by unfolding), entry (p, c) of
  the host's product of X and W is the sum over k of X p k · W k c. General in M, K, N and in both operand
  formats; nothing in it is specific to one program.
-/
import Idealize.ShloMosaic.Lib.ValueIdx
import Idealize.ShloMosaic.PureOps.Ideal.Laws

noncomputable section

namespace Cert.LibDotGeneral

open Idealize.ShloMosaic Idealize.ShloMosaic.ValueIdx

/-- For dimension numbers contracting the left operand's columns against the right operand's rows
    (the four coordinate facts hl0 … hr1 say so), entry (p, c) of the host's product is Σ_k X p k · W k c. -/
theorem dotGeneral_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision)
    (X : FVec Ideal ⟨2, ![M, K]⟩ φ₁) (W : FVec Ideal ⟨2, ![K, N]⟩ φ₂) (p : Fin M) (c : Fin N) :
    Host.dotGeneral D prec X W (ix2 p c) = ∑ k : Fin K, X (ix2 p k) * W (ix2 k c) := by
  refine (Ideal.dotGeneral_apply D prec .single X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibDotGeneral

end
-- ==== Proof.LibSumCut.lean ====
/-
  Two facts about sums over an initial segment of the naturals, for arrays that are padded or cut.

  * A sum over `Fin n` whose terms vanish from position `m` on (an array padded with zeros from row `m`) is the sum
    over the first `m` positions (`sum_eq_sum_castLE`).
  * A sum over `Fin N` with `N = a + b` is the sum over its first `a` positions plus the sum over its last `b`
    (a contraction over a joined axis is the sum of the contractions over the two pieces: `sum_split`).

  Both hold in any additive commutative monoid, so on the extended reals too, infinities included.
-/
import Mathlib.Tactic

open scoped BigOperators

namespace Cert.LibSumCut

/-- A sum over `Fin n` whose terms vanish from position `m` on is the sum over the first `m` positions. -/
theorem sum_eq_sum_castLE {M : Type*} [AddCommMonoid M] {m n : ℕ} (h : m ≤ n) (g : Fin n → M)
    (hz : ∀ i : Fin n, m ≤ i.val → g i = 0) : ∑ i : Fin n, g i = ∑ i : Fin m, g (Fin.castLE h i) := by
  have e : ∑ i : Fin m, g (Fin.castLE h i) = ∑ x ∈ Finset.univ.map (Fin.castLEEmb h), g x := by
    rw [Finset.sum_map]; rfl
  rw [e]
  symm
  refine Finset.sum_subset (Finset.subset_univ _) fun i _ hi => hz i ?_
  by_contra hlt
  exact hi (Finset.mem_map.mpr ⟨⟨i.val, Nat.lt_of_not_le hlt⟩, Finset.mem_univ _, Fin.ext rfl⟩)

/-- A sum over `Fin (a + b)` is the sum over its first `a` positions plus the sum over its last `b`. -/
theorem sum_split {M : Type*} [AddCommMonoid M] {a b N : ℕ} (hN : N = a + b) (f : Fin N → M) :
    ∑ k : Fin N, f k = (∑ k : Fin a, f ⟨k.val, by omega⟩) + ∑ k : Fin b, f ⟨a + k.val, by omega⟩ := by
  subst hN
  rw [Fin.sum_univ_add]
  rfl

end Cert.LibSumCut
-- ==== Proof.GateRef.lean ====
/-
  The reference's gate, read at one entry, at the ideal values.

  The reference computes, for every node i and channel k, the logistic function of an affine form: row i of the
  joined array [x | gi] (500000 x 256) against column k of the transposed weights (256 x 128), plus the bias at k,
  written as 1 / (1 + exp (-t)).  Read at entry (i, k), the contraction over the 256 joined columns splits into the
  contraction of row i of x against the first 128 columns of row k of W and of row i of gi against the last 128, so
  the entry is the gate of Cert.GateSpec over the rows x i, gi i.  The gated features are the product with x at the
  same entry, and the reference's row statistic is the square root of the row sum of the squared gates.
  The gathered array gi is a variable here: nothing depends on how it was gathered.  No finiteness is assumed: every
  step is an identity of sums and total functions on the extended reals.
-/
import proofs.«138824_j50190987821195_1_alg».proof.Proof.Gen.ReferenceIdeal.Read
import proofs.«138824_j50190987821195_1_alg».proof.Proof.GateSpec
import proofs.«138824_j50190987821195_1_alg».proof.Proof.LibDotGeneralRowCol
import proofs.«138824_j50190987821195_1_alg».proof.Proof.LibSumCut
import Idealize.ShloMosaic.Lib.IdealHost
import Idealize.ShloMosaic.Lib.ValueLayout

noncomputable section

open scoped BigOperators

namespace Cert.GateRef

open Cert.ReferenceIdeal Cert.ReferenceIdeal.Gen Idealize.ShloMosaic Idealize.ShloMosaic.ValueIdx

/-- The reference's gate array: 1 / (1 + exp (-([x | gi] · Wᵀ + b))), entry by entry. -/
def gwR (x gi : FVec Ideal S500000x128 .f32) (W : FVec Ideal S128x256 .f32) (b : FVec Ideal S128 .f32) :
    FVec Ideal S500000x128 .f32 :=
  Host.divf (broadcastInDim S500000x128 ![] bcast_S_S500000x128 (constant S_ .f32 0x3F800000#32)) (addf (broadcastInDim S500000x128 ![] bcast_S_S500000x128 (constant S_ .f32 0x3F800000#32)) (Host.exp (Host.negf (addf (Host.dotGeneral dot_S500000x256_S256x128_S500000x128_1_0_0_1_n_n none (concatenate S500000x256 1 [⟨S500000x128, x⟩, ⟨S500000x128, gi⟩] concatenates_S500000x128_S500000x128_S500000x256_d1) (transpose S256x128 [1, 0] W transposes_S128x256_S256x128_1_0)) (broadcastInDim S500000x128 ![0, 1] bcast_S1x128_S500000x128_0_1 (broadcastInDim S1x128 ![1] bcast_S128_S1x128_1 b))))))

/-- The reference's gated features: the gate times x, entry by entry. -/
def weightedR (x gi : FVec Ideal S500000x128 .f32) (W : FVec Ideal S128x256 .f32) (b : FVec Ideal S128 .f32) :
    FVec Ideal S500000x128 .f32 :=
  mulf (gwR x gi W b) x

/-- The reference's row statistic: the square root of the row sum of the squared gates. -/
def normR (x gi : FVec Ideal S500000x128 .f32) (W : FVec Ideal S128x256 .f32) (b : FVec Ideal S128 .f32) :
    FVec Ideal S500000 .f32 :=
  Host.sqrt (Host.reduceAdd (mulf (gwR x gi W b) (gwR x gi W b)) (constant S_ .f32 0x00000000#32) reducesTo_S500000x128_S500000_d1 h_S_)

/-! ## The pieces, read at an index -/

/-- The scalar 1.0 broadcast over the array reads the extended real 1 everywhere. -/
theorem one_apply (j : S500000x128.Idx) :
    broadcastInDim S500000x128 ![] bcast_S_S500000x128 (constant (F := Ideal) S_ .f32 0x3F800000#32) j = (1 : EReal) := by
  rw [broadcastInDim_scalar_apply, constant_apply, Ideal.ofBits_one_f32]

/-- The bias, made a row and broadcast down the rows, reads b k at (i, k). -/
theorem bias_apply (b : FVec Ideal S128 .f32) (i : Fin 500000) (k : Fin 128) :
    broadcastInDim S500000x128 ![0, 1] bcast_S1x128_S500000x128_0_1 (broadcastInDim S1x128 ![1] bcast_S128_S1x128_1 b) (ix2 i k) = b (ix1 k) := by
  refine (broadcastInDim_apply _ bcast_S1x128_S500000x128_0_1 _ (ix2 i k) (ix2 (0 : Fin 1) k) (fun a => match a with
    | ⟨0, _⟩ => by show 0 = if (1 : Nat) = 1 then 0 else i.val; rw [if_pos rfl]
    | ⟨1, _⟩ => by show k.val = if (128 : Nat) = 1 then 0 else k.val; rw [if_neg (by decide)])).trans ?_
  exact broadcastInDim_apply _ bcast_S128_S1x128_1 b (ix2 (0 : Fin 1) k) (ix1 k) (fun a => match a with
    | ⟨0, _⟩ => by show k.val = if (128 : Nat) = 1 then 0 else k.val; rw [if_neg (by decide)])

/-- The joined array [x | gi] reads x in its first 128 columns. -/
theorem cat_left (x gi : FVec Ideal S500000x128 .f32) (i : Fin 500000) (j : Fin 128) :
    concatenate S500000x256 1 [⟨S500000x128, x⟩, ⟨S500000x128, gi⟩] concatenates_S500000x128_S500000x128_S500000x256_d1 (ix2 i (⟨j.val, by omega⟩ : Fin 256)) = x (ix2 i j) :=
  concatenate_pair_apply_left 1 x gi concatenates_S500000x128_S500000x128_S500000x256_d1 _ rfl (ix2 i j)
    (fun c => match c with | ⟨0, _⟩ => rfl | ⟨1, _⟩ => rfl)

/-- The joined array [x | gi] reads gi, shifted by 128, in its last 128 columns. -/
theorem cat_right (x gi : FVec Ideal S500000x128 .f32) (i : Fin 500000) (j : Fin 128) :
    concatenate S500000x256 1 [⟨S500000x128, x⟩, ⟨S500000x128, gi⟩] concatenates_S500000x128_S500000x128_S500000x256_d1 (ix2 i (⟨128 + j.val, by omega⟩ : Fin 256)) = gi (ix2 i j) :=
  concatenate_pair_apply_right 1 x gi concatenates_S500000x128_S500000x128_S500000x256_d1 _ rfl rfl (ix2 i j)
    (fun c => match c with | ⟨0, _⟩ => fun _ => rfl | ⟨1, _⟩ => fun h => absurd rfl h)
    (by show j.val + 128 = 128 + j.val; omega)

/-- The host's product of a 500000 x 256 array with a 256 x 128 one, at (i, k): the sum over the 256 joined columns. -/
theorem dot_apply (X : FVec Ideal S500000x256 .f32) (V : FVec Ideal S256x128 .f32) (i : Fin 500000) (k : Fin 128) :
    Host.dotGeneral dot_S500000x256_S256x128_S500000x128_1_0_0_1_n_n none X V (ix2 i k) = ∑ q : Fin 256, X (ix2 i q) * V (ix2 q k) :=
  Cert.LibDotGeneral.dotGeneral_rowcol dot_S500000x256_S256x128_S500000x128_1_0_0_1_n_n rfl rfl
    Read.lhs_main_v9_0 Read.lhs_main_v9_1 Read.rhs_main_v9_0 Read.rhs_main_v9_1 none X V i k

/-- The affine form's product part at (i, k): row i of x against the first 128 columns of row k of W, plus row i of
    gi against the last 128. -/
theorem dot_cat_apply (x gi : FVec Ideal S500000x128 .f32) (W : FVec Ideal S128x256 .f32) (i : Fin 500000) (k : Fin 128) :
    Host.dotGeneral dot_S500000x256_S256x128_S500000x128_1_0_0_1_n_n none (concatenate S500000x256 1 [⟨S500000x128, x⟩, ⟨S500000x128, gi⟩] concatenates_S500000x128_S500000x128_S500000x256_d1) (transpose S256x128 [1, 0] W transposes_S128x256_S256x128_1_0) (ix2 i k)
      = (∑ j : Fin 128, x (ix2 i j) * W (ix2 k (⟨j.val, by omega⟩ : Fin 256)))
        + ∑ j : Fin 128, gi (ix2 i j) * W (ix2 k (⟨128 + j.val, by omega⟩ : Fin 256)) := by
  rw [dot_apply, Cert.LibSumCut.sum_split (a := 128) (b := 128) rfl]
  refine congrArg₂ (· + ·) (Finset.sum_congr rfl fun j _ => ?_) (Finset.sum_congr rfl fun j _ => ?_)
  · exact congrArg₂ (· * ·) (cat_left x gi i j) (transpose_ix2_apply W transposes_S128x256_S256x128_1_0 _ k)
  · exact congrArg₂ (· * ·) (cat_right x gi i j) (transpose_ix2_apply W transposes_S128x256_S256x128_1_0 _ k)

/-- The gate array at an index, one pointwise operation at a time. -/
theorem gwR_unfold (x gi : FVec Ideal S500000x128 .f32) (W : FVec Ideal S128x256 .f32) (b : FVec Ideal S128 .f32)
    (j : S500000x128.Idx) :
    gwR x gi W b j = Ideal.div (broadcastInDim S500000x128 ![] bcast_S_S500000x128 (constant (F := Ideal) S_ .f32 0x3F800000#32) j) (broadcastInDim S500000x128 ![] bcast_S_S500000x128 (constant (F := Ideal) S_ .f32 0x3F800000#32) j + Ideal.exp (-(
      Host.dotGeneral dot_S500000x256_S256x128_S500000x128_1_0_0_1_n_n none (concatenate S500000x256 1 [⟨S500000x128, x⟩, ⟨S500000x128, gi⟩] concatenates_S500000x128_S500000x128_S500000x256_d1) (transpose S256x128 [1, 0] W transposes_S128x256_S256x128_1_0) j + broadcastInDim S500000x128 ![0, 1] bcast_S1x128_S500000x128_0_1 (broadcastInDim S1x128 ![1] bcast_S128_S1x128_1 b) j))) := rfl

/-! ## The three readings -/

/-- The reference's gate at (i, k) is the gate of node i's rows at channel k. -/
theorem gwR_apply (x gi : FVec Ideal S500000x128 .f32) (W : FVec Ideal S128x256 .f32) (b : FVec Ideal S128 .f32)
    (i : Fin 500000) (k : Fin 128) :
    gwR x gi W b (ix2 i k) = Cert.GateSpec.gate (fun j => x (ix2 i j)) (fun j => gi (ix2 i j))
      (fun j k' => W (ix2 k' (⟨j.val, by omega⟩ : Fin 256))) (fun j k' => W (ix2 k' (⟨128 + j.val, by omega⟩ : Fin 256)))
      (fun k' => b (ix1 k')) k := by
  rw [gwR_unfold, one_apply, dot_cat_apply, bias_apply]
  rfl

/-- The reference's gated feature at (i, k) is the gated feature of node i's rows at channel k. -/
theorem weightedR_apply (x gi : FVec Ideal S500000x128 .f32) (W : FVec Ideal S128x256 .f32) (b : FVec Ideal S128 .f32)
    (i : Fin 500000) (k : Fin 128) :
    weightedR x gi W b (ix2 i k) = Cert.GateSpec.weighted (fun j => x (ix2 i j)) (fun j => gi (ix2 i j))
      (fun j k' => W (ix2 k' (⟨j.val, by omega⟩ : Fin 256))) (fun j k' => W (ix2 k' (⟨128 + j.val, by omega⟩ : Fin 256)))
      (fun k' => b (ix1 k')) k := by
  show gwR x gi W b (ix2 i k) * x (ix2 i k) = _
  rw [gwR_apply]
  rfl

/-- The host's row sum from a zero initial value, at row i: the sum over the 128 columns. -/
theorem rowSum_apply (y : FVec Ideal S500000x128 .f32) (i : Fin 500000) :
    Host.reduceAdd y (constant (F := Ideal) S_ .f32 0x00000000#32) reducesTo_S500000x128_S500000_d1 h_S_ (ix1 i)
      = ∑ k : Fin 128, y (ix2 i k) := by
  simp only [Host.reduceAdd, Ideal.hostReduceAdd_def]
  rw [Ideal.hostReduceAdd_single reducesTo_S500000x128_S500000_d1 (by decide)]
  refine (congrArg (· + _) (Ideal.ofBits_zero_f32)).trans ((zero_add _).trans ?_)
  refine Finset.sum_congr rfl fun k _ => ?_
  exact congrArg y (funext fun a => Fin.ext (by match a with | ⟨0, _⟩ => rfl | ⟨1, _⟩ => rfl))

/-- The reference's row statistic at row i is the Euclidean length of node i's gate vector. -/
theorem normR_apply (x gi : FVec Ideal S500000x128 .f32) (W : FVec Ideal S128x256 .f32) (b : FVec Ideal S128 .f32)
    (i : Fin 500000) :
    normR x gi W b (ix1 i) = Cert.GateSpec.norm (fun j => x (ix2 i j)) (fun j => gi (ix2 i j))
      (fun j k' => W (ix2 k' (⟨j.val, by omega⟩ : Fin 256))) (fun j k' => W (ix2 k' (⟨128 + j.val, by omega⟩ : Fin 256)))
      (fun k' => b (ix1 k')) := by
  unfold normR
  rw [show ∀ (v : FVec Ideal S500000 .f32) (j : S500000.Idx), Host.sqrt v j = Ideal.sqrt (v j) from fun _ _ => rfl]
  rw [rowSum_apply]
  refine congrArg Ideal.sqrt (Finset.sum_congr rfl fun k _ => ?_)
  show gwR x gi W b (ix2 i k) * gwR x gi W b (ix2 i k) = _
  rw [gwR_apply]

end Cert.GateRef

end
-- ==== Proof.GateBridge.lean ====
/-
  The gate region's two arrays, entry by entry, against the reference's gate.

  For a node e whose graph number is in range, row e of the gathered context the kernel stages is row e of the
  reference's gathered context, so the gated features the region leaves in row e and the gate length it leaves at e
  are the reference's: both are the same function of the node's feature row, its context row, the two halves of the
  weight matrix and the bias.  Nodes whose graph number is out of range are not compared: no pooled sum reads them.
-/
import proofs.«138824_j50190987821195_1_alg».proof.Proof.Blocks
import proofs.«138824_j50190987821195_1_alg».proof.Proof.GateSpec
import proofs.«138824_j50190987821195_1_alg».proof.Proof.GatePayload
import proofs.«138824_j50190987821195_1_alg».proof.Proof.GateRef

set_option maxRecDepth 16384

noncomputable section

namespace Cert.GateBridge

open Cert.KernelIdeal Cert.KernelIdeal.Gen Cert.KernelIdeal.Blocks
open Idealize.ShloMosaic Idealize.ShloMosaic.TcCoe Idealize.SL.Sem Idealize.ShloMosaic.ValueIdx

/-- A node's graph number, read as a signed integer, names one of the 1024 graphs. -/
def InRange (b : (⟨S500000, .i32⟩ : BufTy).Contents (Elt Ideal)) (e : Fin 500000) : Prop :=
  0 ≤ (b (ix1 e)).toInt ∧ (b (ix1 e)).toInt < 1024

theorem weighted_congr {xr xr' gr gr' : Fin 128 → EReal} {w1 w1' w2 w2' : Fin 128 → Fin 128 → EReal} {b b' : Fin 128 → EReal}
    (h1 : xr = xr') (h2 : gr = gr') (h3 : w1 = w1') (h4 : w2 = w2') (h5 : b = b') (k : Fin 128) :
    Cert.GateSpec.weighted xr gr w1 w2 b k = Cert.GateSpec.weighted xr' gr' w1' w2' b' k := by
  subst h1 h2 h3 h4 h5; rfl

theorem norm_congr {xr xr' gr gr' : Fin 128 → EReal} {w1 w1' w2 w2' : Fin 128 → Fin 128 → EReal} {b b' : Fin 128 → EReal}
    (h1 : xr = xr') (h2 : gr = gr') (h3 : w1 = w1') (h4 : w2 = w2') (h5 : b = b') :
    Cert.GateSpec.norm xr gr w1 w2 b = Cert.GateSpec.norm xr' gr' w1' w2' b' := by
  subst h1 h2 h3 h4 h5; rfl

variable (V : (c : Dev nD) → (b : Ref sig .tc) → Buf (Elt Ideal) ((c : Thread nD τ).loc b))

/-- The gated features the region leaves at an in-range node are the reference's, given that the region finds the
    node features, the bias and the two weight blocks as the reference has them and the context rows of in-range
    nodes as the reference gathers them. -/
theorem arr5_entry (c : Dev nD) (x gi : FVec Ideal S500000x128 .f32) (W : FVec Ideal S128x256 .f32) (bias : FVec Ideal S128 .f32)
    (b : (⟨S500000, .i32⟩ : BufTy).Contents (Elt Ideal))
    (hx : ∀ (i : Fin 500000) (j : Fin 128), V c main_arg0 (ix2 i j) = x (ix2 i j))
    (hg : ∀ (i : Fin 500000) (j : Fin 128), InRange b i → V c main_v0 (ix2 i j) = gi (ix2 i j))
    (hw1 : ∀ j q : Fin 128, V c main_v3 (ix2 j q) = W (ix2 q (⟨j.val, by omega⟩ : Fin 256)))
    (hw2 : ∀ j q : Fin 128, V c main_v6 (ix2 j q) = W (ix2 q (⟨128 + j.val, by omega⟩ : Fin 256)))
    (hb : ∀ q : Fin 128, V c main_arg4 (ix1 q) = bias (ix1 q))
    (e : Fin 500000) (k : Fin 128) (hin : InRange b e) :
    (dat0 V c).arrAt 5 cfg0.N (ix2 e k) = Cert.GateRef.weightedR x gi W bias (ix2 e k) := by
  refine arr5_forall V c (fun i v => ∀ (e : Fin 500000) (k : Fin 128), i = ix2 e k → InRange b e →
      v = Cert.GateRef.weightedR x gi W bias (ix2 e k)) (fun t r k' e' k'' heq hin' => ?_) (ix2 e k) e k rfl hin
  have he : row t r = e' := Fin.ext (congrArg (fun f => (f (0 : Fin 2)).val) heq)
  have hk : k' = k'' := Fin.ext (congrArg (fun f => (f (1 : Fin 2)).val) heq)
  subst he hk
  refine (Cert.GatePayload.out0_5_apply (iblk0 V c 0 t) (iblk0 V c 1 t) (iblk0 V c 2 t) (iblk0 V c 3 t) (iblk0 V c 4 t) r k').trans ?_
  refine Eq.trans ?_ (Cert.GateRef.weightedR_apply x gi W bias (row t r) k').symm
  exact weighted_congr
    (funext fun j => (iblk0_0_apply V c t r j).trans (hx _ j))
    (funext fun j => (iblk0_1_apply V c t r j).trans (hg _ j hin'))
    (funext fun j => funext fun q => (iblk0_2_apply V c t j q).trans (hw1 j q))
    (funext fun j => funext fun q => (iblk0_3_apply V c t j q).trans (hw2 j q))
    (funext fun q => (iblk0_4_apply V c t q).trans (hb q)) k'

/-- The gate length the region leaves at an in-range node is the reference's. -/
theorem arr6_entry (c : Dev nD) (x gi : FVec Ideal S500000x128 .f32) (W : FVec Ideal S128x256 .f32) (bias : FVec Ideal S128 .f32)
    (b : (⟨S500000, .i32⟩ : BufTy).Contents (Elt Ideal))
    (hx : ∀ (i : Fin 500000) (j : Fin 128), V c main_arg0 (ix2 i j) = x (ix2 i j))
    (hg : ∀ (i : Fin 500000) (j : Fin 128), InRange b i → V c main_v0 (ix2 i j) = gi (ix2 i j))
    (hw1 : ∀ j q : Fin 128, V c main_v3 (ix2 j q) = W (ix2 q (⟨j.val, by omega⟩ : Fin 256)))
    (hw2 : ∀ j q : Fin 128, V c main_v6 (ix2 j q) = W (ix2 q (⟨128 + j.val, by omega⟩ : Fin 256)))
    (hb : ∀ q : Fin 128, V c main_arg4 (ix1 q) = bias (ix1 q))
    (e : Fin 500000) (hin : InRange b e) :
    (dat0 V c).arrAt 6 cfg0.N (ix2 e (0 : Fin 1)) = Cert.GateRef.normR x gi W bias (ix1 e) := by
  refine arr6_forall V c (fun i v => ∀ (e : Fin 500000), i = ix2 e (0 : Fin 1) → InRange b e →
      v = Cert.GateRef.normR x gi W bias (ix1 e)) (fun t r e' heq hin' => ?_) (ix2 e (0 : Fin 1)) e rfl hin
  have he : row t r = e' := Fin.ext (congrArg (fun f => (f (0 : Fin 2)).val) heq)
  subst he
  refine (Cert.GatePayload.out0_6_apply (iblk0 V c 0 t) (iblk0 V c 1 t) (iblk0 V c 2 t) (iblk0 V c 3 t) (iblk0 V c 4 t) r).trans ?_
  refine Eq.trans ?_ (Cert.GateRef.normR_apply x gi W bias (row t r)).symm
  exact norm_congr
    (funext fun j => (iblk0_0_apply V c t r j).trans (hx _ j))
    (funext fun j => (iblk0_1_apply V c t r j).trans (hg _ j hin'))
    (funext fun j => funext fun q => (iblk0_2_apply V c t j q).trans (hw1 j q))
    (funext fun j => funext fun q => (iblk0_3_apply V c t j q).trans (hw2 j q))
    (funext fun q => (iblk0_4_apply V c t q).trans (hb q))

end Cert.GateBridge

end
-- ==== Proof.LibScatterCongr.lean ====
/-
  Congruence of an accumulating scatter in its updates.

  At the ideal values an accumulating scatter leaves, at entry i of its operand, the operand's entry plus the sum of
  the update entries whose index lands on i; an update entry that lands nowhere (its window would leave the operand)
  is read by no entry.  So two update arrays that agree at every update entry that lands somewhere give the same
  result, entry by entry.  General in the three shapes, the dimension numbers, the index width and the float format;
  nothing in it is specific to one program.
-/
import Mathlib.Tactic
import Idealize.ShloMosaic.PureOps.Ideal

noncomputable section

open scoped BigOperators

namespace Cert.LibScatterCongr

open Idealize.ShloMosaic

/-- Two update arrays that agree at every update entry that lands somewhere scatter to the same result. -/
theorem scatterAdd_congr {s si su : Shape} {φ : FTy} (d : ScatterDims s si su) {w : Nat} (x : FVec Ideal s φ)
    (idx : IVec si w) (u u' : FVec Ideal su φ)
    (h : ∀ j i, d.resultIdx? j idx = some i → u j = u' j) :
    Host.scatterAdd (F := Ideal) d x idx u = Host.scatterAdd (F := Ideal) d x idx u' := by
  funext i
  show Ideal.hostScatterAdd d x idx u i = Ideal.hostScatterAdd d x idx u' i
  unfold Ideal.hostScatterAdd
  congr 1
  exact Finset.sum_congr rfl fun j hj => h j i (Finset.mem_filter.mp hj).2

end Cert.LibScatterCongr

end
-- ==== Proof.Segments.lean ====
/-
  Which nodes a segment sum and an out-of-range fill can see.

  An accumulating scatter adds, into entry i of its operand, the update entries that land on i; an update entry whose
  scatter index, read as a signed integer, is outside the operand lands nowhere.  So two update arrays that agree on
  every entry that lands somewhere scatter to the same result.  That general fact is applied to the two
  scatters of this program: 500000 rows of 128 entries added into 1024 rows at 500000 row numbers, and 500000
  numbers added into 1024 numbers at the same row numbers.  There the entries that land are those of the rows whose
  row number is in [0, 1024).
-/
import Mathlib.Tactic
import Idealize.ShloMosaic.PureOps.Ideal
import Idealize.ShloMosaic.PureOps.Reduce
import Idealize.ShloMosaic.Lib.ValueIdx
import Idealize.ShloMosaic.Lib.Affine
import Idealize.ShloMosaic.Lib.Pipeline.Value
import proofs.«138824_j50190987821195_1_alg».proof.KernelIdeal
import proofs.«138824_j50190987821195_1_alg».proof.Proof.LibScatterCongr

noncomputable section

open scoped BigOperators

namespace Cert.Segments

open Idealize.ShloMosaic Idealize.ShloMosaic.ValueIdx
open Cert.KernelIdeal Cert.KernelIdeal.Facts₀

open Cert.LibScatterCongr (scatterAdd_congr)

variable [Facts₀]

/-! ## Row numbers as a column -/

/-- The column of 500000 row numbers read at row e is the e-th row number. -/
theorem bcast_col_apply {α : Type} (y : S500000.Idx → α) (e : Fin 500000) :
    broadcastInDim S500000x1 ![0] bcast_S500000_S500000x1_0 y (ix2 e (0 : Fin 1)) = y (ix1 e) :=
  broadcastInDim_apply _ bcast_S500000_S500000x1_0 y (ix2 e (0 : Fin 1)) (ix1 e) (fun a => match a with
    | ⟨0, _⟩ => by show e.val = if (500000 : Nat) = 1 then 0 else e.val; rw [if_neg (by decide)])

/-- One value per row, repeated along the 128 columns, read at entry (e, k) is the value of row e. -/
theorem bcast_row_apply {α : Type} (y : S500000.Idx → α) (e : Fin 500000) (k : Fin 128) :
    broadcastInDim S500000x128 ![0] bcast_S500000_S500000x128_0 y (ix2 e k) = y (ix1 e) :=
  broadcastInDim_apply _ bcast_S500000_S500000x128_0 y (ix2 e k) (ix1 e) (fun a => match a with
    | ⟨0, _⟩ => by show e.val = if (500000 : Nat) = 1 then 0 else e.val; rw [if_neg (by decide)])

/-! ## The scatter of rows: which update entries land -/

/-- On the row axis the window of update entry (e, k) starts at the e-th scatter index, read as a signed integer. -/
theorem rows_start_row {w : Nat} (idx : IVec S500000x1 w) (e : Fin 500000) (k : Fin 128) :
    scatter_S1024x128_S500000x1_S500000x128_1_0_0_1.start (ix2 e k) idx (0 : Fin 2)
      = (idx (ix2 e (0 : Fin 1))).toInt := by
  unfold ScatterDims.start
  rw [dif_pos (show (0 : Fin 2) ∈ scatter_S1024x128_S500000x1_S500000x128_1_0_0_1.scatterDimsToOperandDims from
    List.mem_singleton.mpr rfl)]
  refine congrArg (fun q => (idx q).toInt) (funext fun bq => Fin.ext ?_)
  match bq with
  | ⟨0, _⟩ => rfl
  | ⟨1, _⟩ => rfl

/-- On the row axis, an inserted axis, the window coordinate of an update entry is 0. -/
theorem rows_window_row (e : Fin 500000) (k : Fin 128) :
    scatter_S1024x128_S500000x1_S500000x128_1_0_0_1.window (ix2 e k) (0 : Fin 2) = 0 := by
  have h0 : (0 : Fin 2) ∉ (List.finRange 2).filter (fun a : Fin 2 => decide (a ∉ ([0] : List (Fin 2)))) := by decide
  unfold ScatterDims.window
  rw [dif_neg (show (0 : Fin 2) ∉ scatter_S1024x128_S500000x1_S500000x128_1_0_0_1.sKept from h0)]

/-- An update entry (e, k) that lands somewhere has its scatter index, read as a signed integer, in [0, 1024). -/
theorem rows_lands {w : Nat} (idx : IVec S500000x1 w) (e : Fin 500000) (k : Fin 128) (i : S1024x128.Idx)
    (h : scatter_S1024x128_S500000x1_S500000x128_1_0_0_1.resultIdx? (ix2 e k) idx = some i) :
    0 ≤ (idx (ix2 e (0 : Fin 1))).toInt ∧ (idx (ix2 e (0 : Fin 1))).toInt < 1024 := by
  unfold ScatterDims.resultIdx? at h
  split at h
  · rename_i hr
    have hr0 := hr (0 : Fin 2)
    rw [rows_start_row, rows_window_row] at hr0
    have hsz : S1024x128.size (0 : Fin 2) = 1024 := rfl
    omega
  · exact absurd h (by simp)

/-! ## The scatter of numbers: which update entries land -/

/-- The window of update entry e starts at the e-th scatter index, read as a signed integer. -/
theorem vec_start {w : Nat} (idx : IVec S500000x1 w) (e : Fin 500000) :
    scatter_S1024_S500000x1_S500000_n_0_0_1.start (ix1 e) idx (0 : Fin 1) = (idx (ix2 e (0 : Fin 1))).toInt := by
  unfold ScatterDims.start
  rw [dif_pos (show (0 : Fin 1) ∈ scatter_S1024_S500000x1_S500000_n_0_0_1.scatterDimsToOperandDims from
    List.mem_singleton.mpr rfl)]
  refine congrArg (fun q => (idx q).toInt) (funext fun bq => Fin.ext ?_)
  match bq with
  | ⟨0, _⟩ => rfl
  | ⟨1, _⟩ => rfl

/-- The operand's one axis is an inserted axis: the window coordinate of an update entry on it is 0. -/
theorem vec_window (e : Fin 500000) :
    scatter_S1024_S500000x1_S500000_n_0_0_1.window (ix1 e) (0 : Fin 1) = 0 := by
  have h0 : (0 : Fin 1) ∉ (List.finRange 1).filter (fun a : Fin 1 => decide (a ∉ ([0] : List (Fin 1)))) := by decide
  unfold ScatterDims.window
  rw [dif_neg (show (0 : Fin 1) ∉ scatter_S1024_S500000x1_S500000_n_0_0_1.sKept from h0)]

/-- An update entry e that lands somewhere has its scatter index, read as a signed integer, in [0, 1024). -/
theorem vec_lands {w : Nat} (idx : IVec S500000x1 w) (e : Fin 500000) (i : S1024.Idx)
    (h : scatter_S1024_S500000x1_S500000_n_0_0_1.resultIdx? (ix1 e) idx = some i) :
    0 ≤ (idx (ix2 e (0 : Fin 1))).toInt ∧ (idx (ix2 e (0 : Fin 1))).toInt < 1024 := by
  unfold ScatterDims.resultIdx? at h
  split at h
  · rename_i hr
    have hr0 := hr (0 : Fin 1)
    rw [vec_start, vec_window] at hr0
    have hsz : S1024.size (0 : Fin 1) = 1024 := rfl
    omega
  · exact absurd h (by simp)

/-! ## The two scatters see only the rows whose row number is in range -/

/-- Two arrays of 500000 rows that agree on the rows whose row number is in [0, 1024) scatter, by rows, to the same
    1024 rows. -/
theorem scatter_rows_congr (b : (⟨S500000, .i32⟩ : BufTy).Contents (Elt Ideal)) (z : FVec Ideal S1024x128 .f32)
    (U U' : FVec Ideal S500000x128 .f32)
    (h : ∀ e : Fin 500000, 0 ≤ (b (ix1 e)).toInt → (b (ix1 e)).toInt < 1024 →
      ∀ k : Fin 128, U (ix2 e k) = U' (ix2 e k)) :
    Host.scatterAdd (F := Ideal) scatter_S1024x128_S500000x1_S500000x128_1_0_0_1 z
        (broadcastInDim S500000x1 ![0] bcast_S500000_S500000x1_0 b) U
      = Host.scatterAdd (F := Ideal) scatter_S1024x128_S500000x1_S500000x128_1_0_0_1 z
        (broadcastInDim S500000x1 ![0] bcast_S500000_S500000x1_0 b) U' := by
  refine scatterAdd_congr _ z _ U U' fun j i hji => ?_
  obtain ⟨e, k, rfl⟩ : ∃ (e : Fin 500000) (k : Fin 128), j = ix2 e k := ⟨j 0, j 1, eq_ix2 j⟩
  obtain ⟨h0, h1⟩ := rows_lands _ e k i hji
  rw [bcast_col_apply] at h0 h1
  exact h e h0 h1 k

/-- Two arrays of 500000 numbers that agree at the rows whose row number is in [0, 1024) scatter to the same 1024
    numbers. -/
theorem scatter_vec_congr (b : (⟨S500000, .i32⟩ : BufTy).Contents (Elt Ideal)) (z : FVec Ideal S1024 .f32)
    (N N' : FVec Ideal S500000 .f32)
    (h : ∀ e : Fin 500000, 0 ≤ (b (ix1 e)).toInt → (b (ix1 e)).toInt < 1024 → N (ix1 e) = N' (ix1 e)) :
    Host.scatterAdd (F := Ideal) scatter_S1024_S500000x1_S500000_n_0_0_1 z
        (broadcastInDim S500000x1 ![0] bcast_S500000_S500000x1_0 b) N
      = Host.scatterAdd (F := Ideal) scatter_S1024_S500000x1_S500000_n_0_0_1 z
        (broadcastInDim S500000x1 ![0] bcast_S500000_S500000x1_0 b) N' := by
  refine scatterAdd_congr _ z _ N N' fun j i hji => ?_
  obtain ⟨e, rfl⟩ : ∃ e : Fin 500000, j = ix1 e := ⟨j 0, eq_ix1 j⟩
  obtain ⟨h0, h1⟩ := vec_lands _ e i hji
  rw [bcast_col_apply] at h0 h1
  exact h e h0 h1

end Cert.Segments

end
-- ==== Proof.TakeFill.lean ====
/-
  A gather of table rows with out-of-range rows filled, at a row whose number is in range.

  Each of 500000 nodes carries a signed 32-bit graph number. The number is first normalised (a negative number has 1024
  added), then the table's row of that number is gathered (the gather itself clamps), and finally every row whose
  normalised number is outside [0, 1023] is replaced by a fill word. For a node whose graph number is already in
  [0, 1024) the normalisation changes nothing, the range test holds, and the result at that node is exactly the
  gathered row: the fill never shows.
-/
import proofs.«138824_j50190987821195_1_alg».proof.KernelIdeal
import Idealize.ShloMosaic.Lib.ValueIdx
import Idealize.ShloMosaic.Lib.Affine
import Idealize.ShloMosaic.Lib.Pipeline.Value
import Idealize.ShloMosaic.PureOps.Reduce

noncomputable section

namespace Cert.TakeFill

open Idealize.ShloMosaic Idealize.ShloMosaic.ValueIdx
open Cert.KernelIdeal Cert.KernelIdeal.Facts₀

variable [Facts₀]

/-- The normalised graph numbers as a [500000, 1] column: a negative number has 1024 added. -/
def idx5 (b : (⟨S500000, .i32⟩ : BufTy).Contents (Elt Ideal)) : (⟨S500000x1, .i32⟩ : BufTy).Contents (Elt Ideal) :=
  broadcastInDim S500000x1 ![0] bcast_S500000_S500000x1_0
    (select (cmpi .slt b (broadcastInDim S500000 ![] bcast_S_S500000 (constantI S_ 32 0#32)))
      (addi b (broadcastInDim S500000 ![] bcast_S_S500000 (constantI S_ 32 1024#32))) b)

/-- The range test per node: the normalised number is at least 0 and at most 1023 (an "and" over the column's one entry). -/
def valid (b : (⟨S500000, .i32⟩ : BufTy).Contents (Elt Ideal)) : (⟨S500000, .i1⟩ : BufTy).Contents (Elt Ideal) :=
  Host.reduce IntOp.andi
    (andi (cmpi .sge (idx5 b) (broadcastInDim S500000x1 ![] bcast_S_S500000x1 (constantI S_ 32 0#32)))
      (cmpi .sle (idx5 b) (broadcastInDim S500000x1 ![0, 1] bcast_S1x1_S500000x1_0_1
        (broadcastInDim S1x1 ![1] bcast_S1_S1x1_1 (constantI S1 32 1023#32)))))
    (constantI S_ 1 1#1) reducesTo_S500000x1_S500000_d1 h_S_

/-- The filled gather: the gathered rows where the range test holds, the fill word elsewhere. -/
def takeK (h : (⟨S1024x128, .f32⟩ : BufTy).Contents (Elt Ideal)) (b : (⟨S500000, .i32⟩ : BufTy).Contents (Elt Ideal)) :
    (⟨S500000x128, .f32⟩ : BufTy).Contents (Elt Ideal) :=
  select
    (broadcastInDim S500000x128 ![0] bcast_S500000_S500000x128_0
      (Host.reduce IntOp.andi
        (andi (cmpi .sge (idx5 b) (broadcastInDim S500000x1 ![] bcast_S_S500000x1 (constantI S_ 32 0#32)))
          (cmpi .sle (idx5 b) (broadcastInDim S500000x1 ![0, 1] bcast_S1x1_S500000x1_0_1
            (broadcastInDim S1x1 ![1] bcast_S1_S1x1_1 (constantI S1 32 1023#32)))))
        (constantI S_ 1 1#1) reducesTo_S500000x1_S500000_d1 h_S_))
    (Host.gather gather_S1024x128_S500000x1_S500000x128_1_0_n_n_0_1_1128 h (idx5 b))
    (broadcastInDim S500000x128 ![] bcast_S_S500000x128 (constant (F := Ideal) S_ .f32 0x7FC00000#32))

theorem takeK_eq (h : (⟨S1024x128, .f32⟩ : BufTy).Contents (Elt Ideal)) (b : (⟨S500000, .i32⟩ : BufTy).Contents (Elt Ideal)) :
    takeK h b = select (broadcastInDim S500000x128 ![0] bcast_S500000_S500000x128_0 (valid b))
      (Host.gather gather_S1024x128_S500000x1_S500000x128_1_0_n_n_0_1_1128 h (idx5 b))
      (broadcastInDim S500000x128 ![] bcast_S_S500000x128 (constant (F := Ideal) S_ .f32 0x7FC00000#32)) := rfl

/-- A number that is not negative is its own normal form. -/
theorem idx5_apply (b : (⟨S500000, .i32⟩ : BufTy).Contents (Elt Ideal)) (e : Fin 500000) (u : Fin 1)
    (h0 : 0 ≤ (b (ix1 e)).toInt) : idx5 b (ix2 e u) = b (ix1 e) := by
  unfold idx5
  refine (broadcastInDim_apply _ _ _ (ix2 e u) (ix1 e) (fun a => ?_)).trans ?_
  · match a with
    | ⟨0, _⟩ => exact (if_neg (by show ¬ (500000 : ℕ) = 1; decide)).symm
  · show Scalar.select (IntOp.cmpi .slt (b (ix1 e)) 0#32) (IntOp.addi (b (ix1 e)) 1024#32) (b (ix1 e)) = b (ix1 e)
    refine if_neg (fun hh => ?_)
    have hlt := IntOp.cmpi_slt.1 hh
    have z : (0#32 : BitVec 32).toInt = 0 := by decide
    omega

/-- A left fold by "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- The range test holds at a node whose graph number is in [0, 1024). -/
theorem valid_apply (b : (⟨S500000, .i32⟩ : BufTy).Contents (Elt Ideal)) (e : Fin 500000)
    (h0 : 0 ≤ (b (ix1 e)).toInt) (h1 : (b (ix1 e)).toInt < 1024) : valid b (ix1 e) = 1#1 := by
  unfold valid
  rw [Host.reduce_eq_foldl]
  refine foldl_andi_one _ _ fun i hi => ?_
  have hd : reducesTo_S500000x1_S500000_d1.drop i = ix1 e := of_decide_eq_true (List.mem_filter.1 hi).2
  have hR : S500000x1.Reduces [1] S500000 := by decide
  have hi' : i = ix2 e (i 1) := by
    have hl := hR.lift_drop i
    rw [← Shape.ReducesTo.drop_eq_drop reducesTo_S500000x1_S500000_d1 hR, hd] at hl
    rw [← hl]
    funext a; apply Fin.ext
    match a with
    | ⟨0, _⟩ => rfl
    | ⟨1, _⟩ => rfl
  rw [hi']
  show IntOp.andi (IntOp.cmpi .sge (idx5 b (ix2 e (i 1))) 0#32) (IntOp.cmpi .sle (idx5 b (ix2 e (i 1))) 1023#32) = 1#1
  rw [idx5_apply b e (i 1) h0]
  have z : (0#32 : BitVec 32).toInt = 0 := by decide
  have z' : (1023#32 : BitVec 32).toInt = 1023 := by decide
  exact IntOp.andi_eq_one.2 ⟨IntOp.cmpi_sge.2 (by omega), IntOp.cmpi_sle.2 (by omega)⟩

/-- At a node whose graph number is in [0, 1024) the filled gather is the gather. -/
theorem takeK_apply (h : (⟨S1024x128, .f32⟩ : BufTy).Contents (Elt Ideal)) (b : (⟨S500000, .i32⟩ : BufTy).Contents (Elt Ideal))
    (e : Fin 500000) (h0 : 0 ≤ (b (ix1 e)).toInt) (h1 : (b (ix1 e)).toInt < 1024) (k : Fin 128) :
    takeK h b (ix2 e k) = Host.gather gather_S1024x128_S500000x1_S500000x128_1_0_n_n_0_1_1128 h (idx5 b) (ix2 e k) := by
  have hm : broadcastInDim S500000x128 ![0] bcast_S500000_S500000x128_0 (valid b) (ix2 e k) = 1#1 :=
    (broadcastInDim_apply _ _ _ (ix2 e k) (ix1 e) (fun a => match a with
      | ⟨0, _⟩ => (if_neg (by show ¬ (500000 : ℕ) = 1; decide)).symm)).trans (valid_apply b e h0 h1)
  rw [takeK_eq]
  show Scalar.select (broadcastInDim S500000x128 ![0] bcast_S500000_S500000x128_0 (valid b) (ix2 e k)) _ _ = _
  rw [hm]
  exact select_one _ _

end Cert.TakeFill

end
-- ==== Proof.KernelValue.lean ====
/-
  The idealized kernel's two results as functions of its arguments.

  The GRU region's output array is the GRU cell of the pooled gated features, the graph states, the two transposed
  weight matrices and the two biases; the scalar result is the mean over graphs of pooled gate length over
  max(node count, 1).  Both pooled sums are accumulating scatters along the graph numbers, which read only nodes
  whose graph number is in range, and at those nodes the gate region's arrays are the reference's gate arrays; so in
  both results the kernel's arrays may be replaced by the reference's gated features and gate lengths, computed from
  the node features, the context rows gathered at the normalised graph numbers, the weight matrix and the bias.
-/
import proofs.«138824_j50190987821195_1_alg».proof.Proof.KernelHost
import proofs.«138824_j50190987821195_1_alg».proof.Proof.Blocks
import proofs.«138824_j50190987821195_1_alg».proof.Proof.GruCell
import proofs.«138824_j50190987821195_1_alg».proof.Proof.GateBridge
import proofs.«138824_j50190987821195_1_alg».proof.Proof.Segments
import proofs.«138824_j50190987821195_1_alg».proof.Proof.TakeFill
import proofs.«138824_j50190987821195_1_alg».proof.Proof.LibColumn

set_option maxRecDepth 16384

noncomputable section

namespace Cert.KernelValue

open Cert.KernelIdeal Cert.KernelIdeal.Gen
open Idealize.ShloMosaic Idealize.ShloMosaic.TcCoe Idealize.SL.Sem Idealize.ShloMosaic.ValueIdx
open Cert.GateBridge (InRange)

variable (m : (ℓ : Loc nD τ sig) → Buf (Elt Ideal) ℓ) (ρ : Dev nD → PrngReg)

/-- The node features, graph numbers, graph states, gate weight matrix and gate bias, as launched. -/
abbrev X (c : Dev nD) : FVec Ideal S500000x128 .f32 := m ((c : Thread nD τ).loc main_arg0)
abbrev B (c : Dev nD) : (⟨S500000, .i32⟩ : BufTy).Contents (Elt Ideal) := m ((c : Thread nD τ).loc main_arg1)
abbrev H (c : Dev nD) : FVec Ideal S1024x128 .f32 := m ((c : Thread nD τ).loc main_arg2)
abbrev Wm (c : Dev nD) : FVec Ideal S128x256 .f32 := m ((c : Thread nD τ).loc main_arg3)
abbrev Bias (c : Dev nD) : FVec Ideal S128 .f32 := m ((c : Thread nD τ).loc main_arg4)

/-- The context rows gathered at the normalised graph numbers (out-of-range numbers clamped, as a gather does). -/
def GI (c : Dev nD) : FVec Ideal S500000x128 .f32 :=
  Host.gather gather_S1024x128_S500000x1_S500000x128_1_0_n_n_0_1_1128 (H m c) (Cert.TakeFill.idx5 (B m c))

/-! ## What the gate region finds -/

theorem hx (c : Dev nD) (i : Fin 500000) (j : Fin 128) : V2 m ρ c main_arg0 (ix2 i j) = X m c (ix2 i j) :=
  congrFun (Cert.KernelIdeal.HostValue.W2_arg0 m ρ c) (ix2 i j)

theorem hg (c : Dev nD) (i : Fin 500000) (j : Fin 128) (hin : InRange (B m c) i) : V2 m ρ c main_v0 (ix2 i j) = GI m c (ix2 i j) :=
  (congrFun (Cert.KernelIdeal.HostValue.W2_v0 m ρ c) (ix2 i j)).trans (Cert.TakeFill.takeK_apply (H m c) (B m c) i hin.1 hin.2 j)

theorem hw1 (c : Dev nD) (j q : Fin 128) : V2 m ρ c main_v3 (ix2 j q) = Wm m c (ix2 q (⟨j.val, by omega⟩ : Fin 256)) :=
  (congrFun (Cert.KernelIdeal.HostValue.W2_v3 m ρ c) (ix2 j q)).trans (Cert.GatePayload.w1_apply (Wm m c) j q)

theorem hw2 (c : Dev nD) (j q : Fin 128) : V2 m ρ c main_v6 (ix2 j q) = Wm m c (ix2 q (⟨128 + j.val, by omega⟩ : Fin 256)) :=
  (congrFun (Cert.KernelIdeal.HostValue.W2_v6 m ρ c) (ix2 j q)).trans (Cert.GatePayload.w2_apply (Wm m c) j q)

theorem hb (c : Dev nD) (q : Fin 128) : V2 m ρ c main_arg4 (ix1 q) = Bias m c (ix1 q) :=
  congrFun (Cert.KernelIdeal.HostValue.W2_arg4 m ρ c) (ix1 q)

/-! ## The pooled sums read only in-range nodes -/

/-- Pooling the kernel's gated features is pooling the reference's. -/
theorem pooled_eq (c : Dev nD) :
    Host.scatterAdd (F := Ideal) scatter_S1024x128_S500000x1_S500000x128_1_0_0_1 (broadcastInDim S1024x128 ![] bcast_S_S1024x128 (constant S_ .f32 0x00000000#32)) (broadcastInDim S500000x1 ![0] bcast_S500000_S500000x1_0 (B m c)) ((dat0 (V2 m ρ) c).arrAt 5 cfg0.N)
      = Host.scatterAdd (F := Ideal) scatter_S1024x128_S500000x1_S500000x128_1_0_0_1 (broadcastInDim S1024x128 ![] bcast_S_S1024x128 (constant S_ .f32 0x00000000#32)) (broadcastInDim S500000x1 ![0] bcast_S500000_S500000x1_0 (B m c)) (Cert.GateRef.weightedR (X m c) (GI m c) (Wm m c) (Bias m c)) :=
  Cert.Segments.scatter_rows_congr (B m c) _ _ _ fun e h0 h1 k =>
    Cert.GateBridge.arr5_entry (V2 m ρ) c (X m c) (GI m c) (Wm m c) (Bias m c) (B m c)
      (hx m ρ c) (hg m ρ c) (hw1 m ρ c) (hw2 m ρ c) (hb m ρ c) e k ⟨h0, h1⟩

/-- Pooling the kernel's gate lengths is pooling the reference's. -/
theorem lengths_eq (c : Dev nD) :
    Host.scatterAdd (F := Ideal) scatter_S1024_S500000x1_S500000_n_0_0_1 (broadcastInDim S1024 ![] bcast_S_S1024 (constant S_ .f32 0x00000000#32)) (broadcastInDim S500000x1 ![0] bcast_S500000_S500000x1_0 (B m c)) (fun i => shapeCast S500000 ((dat0 (V2 m ρ) c).arrAt 6 cfg0.N) shapeCasts_S500000x1_S500000 i)
      = Host.scatterAdd (F := Ideal) scatter_S1024_S500000x1_S500000_n_0_0_1 (broadcastInDim S1024 ![] bcast_S_S1024 (constant S_ .f32 0x00000000#32)) (broadcastInDim S500000x1 ![0] bcast_S500000_S500000x1_0 (B m c)) (Cert.GateRef.normR (X m c) (GI m c) (Wm m c) (Bias m c)) :=
  Cert.Segments.scatter_vec_congr (B m c) _ _ _ fun e h0 h1 =>
    (Cert.Lib.Column.shapeCast_a1_a_apply ((dat0 (V2 m ρ) c).arrAt 6 cfg0.N) shapeCasts_S500000x1_S500000 e).trans
      (Cert.GateBridge.arr6_entry (V2 m ρ) c (X m c) (GI m c) (Wm m c) (Bias m c) (B m c)
        (hx m ρ c) (hg m ρ c) (hw1 m ρ c) (hw2 m ρ c) (hb m ρ c) e ⟨h0, h1⟩)

/-! ## The two results -/

/-- The GRU region's output array: the GRU cell of the pooled reference gated features. -/
theorem result0 (c : Dev nD) :
    W5 m ρ c (Proc.devRef .tc main_v26)
      = Cert.GruCell.gruR
          (Host.scatterAdd (F := Ideal) scatter_S1024x128_S500000x1_S500000x128_1_0_0_1 (broadcastInDim S1024x128 ![] bcast_S_S1024x128 (constant S_ .f32 0x00000000#32)) (broadcastInDim S500000x1 ![0] bcast_S500000_S500000x1_0 (B m c)) (Cert.GateRef.weightedR (X m c) (GI m c) (Wm m c) (Bias m c)))
          (H m c)
          (transpose S128x384 [1, 0] (m ((c : Thread nD τ).loc main_arg5)) transposes_S384x128_S128x384_1_0)
          (transpose S128x384 [1, 0] (m ((c : Thread nD τ).loc main_arg6)) transposes_S384x128_S128x384_1_0)
          (m ((c : Thread nD τ).loc main_arg7)) (m ((c : Thread nD τ).loc main_arg8)) := by
  rw [Cert.KernelIdeal.HostValue.W5_v26]
  funext i
  rw [Cert.KernelIdeal.Blocks.arr1_6 (V4 m ρ) c i]
  have e11 := Cert.KernelIdeal.HostValue.W4_v11 m ρ c
  have e2 := Cert.KernelIdeal.HostValue.W4_arg2 m ρ c
  have e24 := Cert.KernelIdeal.HostValue.W4_v24 m ρ c
  have e25 := Cert.KernelIdeal.HostValue.W4_v25 m ρ c
  have e7 := Cert.KernelIdeal.HostValue.W4_arg7 m ρ c
  have e8 := Cert.KernelIdeal.HostValue.W4_arg8 m ρ c
  show out1_6 (F := Ideal) (W4 m ρ c (Proc.devRef .tc main_v11)) (W4 m ρ c (Proc.devRef .tc main_arg2)) (W4 m ρ c (Proc.devRef .tc main_v24)) (W4 m ρ c (Proc.devRef .tc main_v25)) (W4 m ρ c (Proc.devRef .tc main_arg7)) (W4 m ρ c (Proc.devRef .tc main_arg8)) i = _
  rw [e11, e2, e24, e25, e7, e8, pooled_eq m ρ c, Cert.GruCell.out1_6_eq]

/-- The scalar result: the gate statistic of the pooled reference gate lengths. -/
theorem result1 (c : Dev nD) :
    W5 m ρ c (Proc.devRef .tc main_v23)
      = Host.divf (Host.reduceAdd (Host.divf (Host.scatterAdd scatter_S1024_S500000x1_S500000_n_0_0_1 (broadcastInDim S1024 ![] bcast_S_S1024 (constant S_ .f32 0x00000000#32)) (broadcastInDim S500000x1 ![0] bcast_S500000_S500000x1_0 (B m c)) (Cert.GateRef.normR (X m c) (GI m c) (Wm m c) (Bias m c))) (maximumf (Host.scatterAdd scatter_S1024_S500000x1_S500000_n_0_0_1 (broadcastInDim S1024 ![] bcast_S_S1024 (constant S_ .f32 0x00000000#32)) (broadcastInDim S500000x1 ![0] bcast_S500000_S500000x1_0 (B m c)) (broadcastInDim S500000 ![] bcast_S_S500000 (constant S_ .f32 0x3F800000#32))) (broadcastInDim S1024 ![] bcast_S_S1024 (constant S_ .f32 0x3F800000#32)))) (constant S_ .f32 0x00000000#32) reducesTo_S1024_S_d0 h_S_) (constant S_ .f32 0x44800000#32) := by
  rw [Cert.KernelIdeal.HostValue.W5_v23, Cert.KernelIdeal.HostValue.W4_v23, lengths_eq m ρ c]

end Cert.KernelValue

end
-- ==== Proof.lean ====
/-
  A readout block of a graph network, kernel against reference.

  Every node's features are gated, channel by channel, by the logistic function of an affine form of the node's
  features and of its graph's context row; the gated features are summed per graph and drive a GRU update of the
  graph's state, and the mean over graphs of the average Euclidean length of the nodes' gate vectors is returned
  beside it.  The kernel computes the gate in a row-blocked region from two half-width matrix products, where the
  reference takes one full-width product of the joined features; it fills the context rows of nodes whose graph
  number is out of range with a not-a-number word where the reference clamps the number; and it computes the GRU
  cell in a second region.  On the extended reals the two programs return the same values: a sum over 256 terms is
  the sum of its two halves, the logistic function is the same expression on both sides, and both per-graph sums are
  accumulating scatters along the graph numbers, which skip exactly the nodes whose graph number is out of range —
  the only nodes at which the two gathered context arrays differ.  No finiteness of the inputs is used.

  The three frames are the generated ones (the reference's is its generated run with the results dropped); the
  idealization rewrote nothing, so its claim is trivial.
-/
import proofs.«138824_j50190987821195_1_alg».proof.Defs
import proofs.«138824_j50190987821195_1_alg».proof.Proof.Gen.Kernel
import proofs.«138824_j50190987821195_1_alg».proof.Proof.Gen.Kernel.Skeleton
import proofs.«138824_j50190987821195_1_alg».proof.Proof.Gen.Kernel.Launch
import proofs.«138824_j50190987821195_1_alg».proof.Proof.Gen.Kernel.Points
import proofs.«138824_j50190987821195_1_alg».proof.Proof.Gen.Kernel.Frame
import proofs.«138824_j50190987821195_1_alg».proof.Proof.Gen.KernelIdeal
import proofs.«138824_j50190987821195_1_alg».proof.Proof.Gen.KernelIdeal.Skeleton
import proofs.«138824_j50190987821195_1_alg».proof.Proof.Gen.KernelIdeal.Launch
import proofs.«138824_j50190987821195_1_alg».proof.Proof.Gen.KernelIdeal.Points
import proofs.«138824_j50190987821195_1_alg».proof.Proof.Gen.KernelIdeal.Frame
import proofs.«138824_j50190987821195_1_alg».proof.Proof.Gen.ReferenceIdeal
import proofs.«138824_j50190987821195_1_alg».proof.Proof.Gen.Pre_finite_inputs
import proofs.«138824_j50190987821195_1_alg».proof.Proof.Gen.ReferenceIdeal.Run
import proofs.«138824_j50190987821195_1_alg».proof.Proof.Gen.ReferenceIdeal.Read
import proofs.«138824_j50190987821195_1_alg».proof.Proof.KernelRun
import proofs.«138824_j50190987821195_1_alg».proof.Proof.KernelValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The reference's first result, from arguments that agree with the kernel's, is the kernel's: the GRU cell of the
    pooled gated features, the gather and the scatter records of the two programs being the same records. -/
theorem result0_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v60 (F := Ideal) m' c
      = Cert.KernelIdeal.Gen.W5 m ρ c (Proc.devRef .tc Cert.KernelIdeal.main_v26) := by
  rw [Cert.KernelValue.result0 m ρ c, Cert.GruCell.res_eq m' c]
  unfold Cert.GruCell.pooledR
  rw [a0, a1, a2, a3, a4, a5, a6, a7, a8]
  unfold Cert.GateRef.weightedR Cert.GateRef.gwR Cert.KernelValue.GI Cert.TakeFill.idx5
  rfl

section
open Cert.ReferenceIdeal Cert.ReferenceIdeal.Gen Idealize.ShloMosaic.TcCoe

/-- The reference's second result as its composed term of the arguments (the term its generated run states):
    the mean over graphs of pooled gate length over max(node count, 1). -/
def refLoss {F : FTy → Type} [FloatOps F] (m : (ℓ : Loc nD τ sig) → Buf (Elt F) ℓ) (c : Dev nD) :
    Buf (Elt F) ((c.tc : Thread nD τ).loc main_v75) :=
  Host.divf (Host.reduceAdd (Host.divf (Host.scatterAdd scatter_S1024_S500000x1_S500000_n_0_0_1 (broadcastInDim S1024 ![] bcast_S_S1024 (constant S_ .f32 0x00000000#32)) (broadcastInDim S500000x1 ![0] bcast_S500000_S500000x1_0 (m ((c.tc : Thread nD τ).loc main_arg1))) (Host.sqrt (Host.reduceAdd (mulf (Host.divf (broadcastInDim S500000x128 ![] bcast_S_S500000x128 (constant S_ .f32 0x3F800000#32)) (addf (broadcastInDim S500000x128 ![] bcast_S_S500000x128 (constant S_ .f32 0x3F800000#32)) (Host.exp (Host.negf (addf (Host.dotGeneral dot_S500000x256_S256x128_S500000x128_1_0_0_1_n_n none (concatenate S500000x256 1 [⟨S500000x128, (m ((c.tc : Thread nD τ).loc main_arg0))⟩, ⟨S500000x128, (Host.gather gather_S1024x128_S500000x1_S500000x128_1_0_n_n_0_1_1128 (m ((c.tc : Thread nD τ).loc main_arg2)) (broadcastInDim S500000x1 ![0] bcast_S500000_S500000x1_0 (select (cmpi .slt (m ((c.tc : Thread nD τ).loc main_arg1)) (broadcastInDim S500000 ![] bcast_S_S500000 (constantI S_ 32 0#32))) (addi (m ((c.tc : Thread nD τ).loc main_arg1)) (broadcastInDim S500000 ![] bcast_S_S500000 (constantI S_ 32 1024#32))) (m ((c.tc : Thread nD τ).loc main_arg1)))))⟩] concatenates_S500000x128_S500000x128_S500000x256_d1) (transpose S256x128 [1, 0] (m ((c.tc : Thread nD τ).loc main_arg3)) transposes_S128x256_S256x128_1_0)) (broadcastInDim S500000x128 ![0, 1] bcast_S1x128_S500000x128_0_1 (broadcastInDim S1x128 ![1] bcast_S128_S1x128_1 (m ((c.tc : Thread nD τ).loc main_arg4))))))))) (Host.divf (broadcastInDim S500000x128 ![] bcast_S_S500000x128 (constant S_ .f32 0x3F800000#32)) (addf (broadcastInDim S500000x128 ![] bcast_S_S500000x128 (constant S_ .f32 0x3F800000#32)) (Host.exp (Host.negf (addf (Host.dotGeneral dot_S500000x256_S256x128_S500000x128_1_0_0_1_n_n none (concatenate S500000x256 1 [⟨S500000x128, (m ((c.tc : Thread nD τ).loc main_arg0))⟩, ⟨S500000x128, (Host.gather gather_S1024x128_S500000x1_S500000x128_1_0_n_n_0_1_1128 (m ((c.tc : Thread nD τ).loc main_arg2)) (broadcastInDim S500000x1 ![0] bcast_S500000_S500000x1_0 (select (cmpi .slt (m ((c.tc : Thread nD τ).loc main_arg1)) (broadcastInDim S500000 ![] bcast_S_S500000 (constantI S_ 32 0#32))) (addi (m ((c.tc : Thread nD τ).loc main_arg1)) (broadcastInDim S500000 ![] bcast_S_S500000 (constantI S_ 32 1024#32))) (m ((c.tc : Thread nD τ).loc main_arg1)))))⟩] concatenates_S500000x128_S500000x128_S500000x256_d1) (transpose S256x128 [1, 0] (m ((c.tc : Thread nD τ).loc main_arg3)) transposes_S128x256_S256x128_1_0)) (broadcastInDim S500000x128 ![0, 1] bcast_S1x128_S500000x128_0_1 (broadcastInDim S1x128 ![1] bcast_S128_S1x128_1 (m ((c.tc : Thread nD τ).loc main_arg4)))))))))) (constant S_ .f32 0x00000000#32) reducesTo_S500000x128_S500000_d1 h_S_))) (maximumf (Host.scatterAdd scatter_S1024_S500000x1_S500000_n_0_0_1 (broadcastInDim S1024 ![] bcast_S_S1024 (constant S_ .f32 0x00000000#32)) (broadcastInDim S500000x1 ![0] bcast_S500000_S500000x1_0 (m ((c.tc : Thread nD τ).loc main_arg1))) (broadcastInDim S500000 ![] bcast_S_S500000 (constant S_ .f32 0x3F800000#32))) (broadcastInDim S1024 ![] bcast_S_S1024 (constant S_ .f32 0x3F800000#32)))) (constant S_ .f32 0x00000000#32) reducesTo_S1024_S_d0 h_S_) (constant S_ .f32 0x44800000#32)

end

/-- The reference's second result, from arguments that agree with the kernel's, is the kernel's: the same gate
    statistic of the same pooled gate lengths. -/
theorem result1_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    refLoss (F := Ideal) m' c = Cert.KernelIdeal.Gen.W5 m ρ c (Proc.devRef .tc Cert.KernelIdeal.main_v23) := by
  unfold refLoss
  rw [Cert.KernelValue.result1 m ρ c, a0, a1, a2, a3, a4]
  unfold Cert.GateRef.normR Cert.GateRef.gwR Cert.KernelValue.GI Cert.TakeFill.idx5
  rfl

/-- At the ideal values the two programs, run from memories that agree on the arguments, end with equal results:
    the kernel's are read off its run (the last boundary's contents), the reference's off its generated run, and the
    two pairs of terms are one pair of functions of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v26),
    fun c => Cert.KernelIdeal.Gen.W5 m ρ c (Proc.devRef .tc Cert.KernelIdeal.main_v23),
    Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  exact ⟨(h c).1.trans (result0_eq m ρ m' c a0 a1 a2 a3 a4 a5 a6 a7 a8),
    (h c).2.1.trans (result1_eq m ρ m' c a0 a1 a2 a3 a4 a5 a6 a7 a8), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
